-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S8192x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S16x4x8x128 : Shape := ⟨4, ![16, 4, 8, 128]⟩
abbrev S512x1024 : Shape := ⟨2, ![512, 1024]⟩
abbrev S1024x1024 : Shape := ⟨2, ![1024, 1024]⟩
abbrev S1x1x8x128 : Shape := ⟨4, ![1, 1, 8, 128]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x1x1x1 : Shape := ⟨4, ![1, 1, 1, 1]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .bf16⟩
  | .hbm, ⟨4, _⟩ => ⟨S16x4x8x128, .f32⟩
  | .hbm, ⟨5, _⟩ => ⟨S16x4x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1x8x128, .f32⟩
  | .local _ .vmem, ⟨7, _⟩ => ⟨S1x1x8x128, .f32⟩
  | .local _ .vmem, ⟨8, _⟩ => ⟨S1x1x8x128, .f32⟩
  | .local _ .vmem, ⟨9, _⟩ => ⟨S1x1x8x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S1024 : S512x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1x1x1 : S1x1.ShapeCasts S1x1x1x1
  shapeCasts_S1x1x1x1_S1x1x1x1 : S1x1x1x1.ShapeCasts S1x1x1x1
  broadcasts_S1x1x1x1_S1x1x8x128 : S1x1x1x1.Broadcasts S1x1x8x128
  inb_S1x1x8x128_S1x1x8x128_0_0_0_0 : ∀ a, (![0, 0, 0, 0] : Fin 4 → Nat) a + S1x1x8x128.size a ≤ S1x1x8x128.size a
  h_S1x1x8x128 : 0 < S1x1x8x128.numel
  reducesTo_S16x4x8x128_S_d0_1_2_3 : S16x4x8x128.ReducesTo [0, 1, 2, 3] S_
  h_S_ : 0 < S_.numel
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x4096.size a
  hwx0_1 : ∀ i : grid0.Coords, EltTy.bits .f32 = 32 ∨ (Rect.block (s := S8192x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x128.size a ≤ S16x4x8x128.size a
  hwx0_3 : ∀ i : grid0.Coords, EltTy.bits .f32 = 32 ∨ (Rect.block (s := S16x4x8x128) S1x1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8x128.size a ≤ S16x4x8x128.size a
  hwx0_4 : ∀ i : grid0.Coords, EltTy.bits .f32 = 32 ∨ (Rect.block (s := S16x4x8x128) S1x1x8x128.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  transposes_S4096x4096_S4096x4096_1_0 : S4096x4096.Transposes [1, 0] S4096x4096
  reducesTo_S8192x4096_S_d0_1 : S8192x4096.ReducesTo [0, 1] S_
  h_S_ : 0 < S_.numel
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KbDefs.lean ====
import proofs.«168541_j51891794870959_2_alg».proof.Proof.Gen.Kernel.Frame
import proofs.«168541_j51891794870959_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition: the contraction coordinate is 0. -/
abbrev C1 (i : grid0.Coords) : Prop := (Scalar.cmpi .ne (Scalar.extui (Scalar.cmpi .eq (BitVec.ofNat 32 (i 2).val) 0#32)) 0#32) = 1#1
/-- The capture condition: the contraction coordinate equals the column-block coordinate. -/
abbrev C2 (i : grid0.Coords) : Prop := (Scalar.cmpi .ne (Scalar.extui (Scalar.cmpi .eq (BitVec.ofNat 32 (i 2).val) (BitVec.ofNat 32 (i 1).val))) 0#32) = 1#1
/-- The write-out condition: the contraction coordinate is the last. -/
abbrev C3 (i : grid0.Coords) : Prop := k0_cond3 i = 1#1

theorem hz2 : (![0, 0] : Fin 2 → Nat) = fun _ => 0 := by funext a; fin_cases a <;> rfl
theorem hz4 : (![0, 0, 0, 0] : Fin 4 → Nat) = fun _ => 0 := by funext a; fin_cases a <;> rfl

/-! ## One grid point, as a function of what the point finds

The body reads three input tiles — x0, a tile of y; x1, the same tile of yh; x2, a tile of W — and three scratch
tiles it carries from point to point: the accumulator s0, the captured squared error s1, the captured mask s2. -/

/-- The accumulator after the point: the tiles' product added to zero at the first contraction block, and to what the
    accumulator held at the others. -/
def accNext (i : grid0.Coords) (x0 x1 : Vec F S512x1024 .f32) (x2 : Vec F S1024x1024 .bf16) (s0 : Vec F S512x1024 .f32) :
    Vec F S512x1024 .f32 :=
  k0_pay5 x0 x1 x2 (if C1 i then k0_pay1 else s0)

/-- The captured squared error after the point: this point's, where the contraction block is the column block. -/
def sqNext (i : grid0.Coords) (x0 x1 s1 : Vec F S512x1024 .f32) : Vec F S512x1024 .f32 :=
  if C2 i then k0_pay3 x0 x1 else s1

/-- The captured mask after the point: this point's, where the contraction block is the column block. -/
def mkNext (i : grid0.Coords) (x0 s2 : Vec F S512x1024 .f32) : Vec F S512x1024 .f32 :=
  if C2 i then k0_pay4 x0 else s2

/-- The tile's masked total, spread over the output block, from the three scratch tiles after the point. -/
def totalOut (i : grid0.Coords) (x0 x1 : Vec F S512x1024 .f32) (x2 : Vec F S1024x1024 .bf16) (s0 s1 s2 : Vec F S512x1024 .f32) :
    Vec F S1x1x8x128 .f32 :=
  k0_pay6 (sqNext i x0 x1 s1) (accNext i x0 x1 x2 s0) (mkNext i x0 s2)

/-- The tile's mask count, spread over the output block. -/
def maskOut (i : grid0.Coords) (x0 s2 : Vec F S512x1024 .f32) : Vec F S1x1x8x128 .f32 :=
  k0_pay7 (mkNext i x0 s2)

end Cert.Kernel.Body

end
-- ==== Proof.KbData.lean ====
import proofs.«168541_j51891794870959_2_alg».proof.Proof.Gen.Kernel.Frame
import proofs.«168541_j51891794870959_2_alg».proof.Proof.Gen.Kernel.Skeleton
import Idealize.ShloMosaic.Lib.Pipeline.Value
import proofs.«168541_j51891794870959_2_alg».proof.Proof.KbDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions over the grid

Point t of the 16 x 4 x 4 grid has coordinates (t / 16, t / 4 mod 4, t mod 4): row block, column block, contraction block. -/

/-- The accumulator is reset at the first contraction block. -/
theorem hC1 : ∀ t : Fin cfg0.N, C1 (grid0.coords t) ↔ t.val % 4 = 0 :=
  (by decide +kernel : ∀ t : Fin grid0.N, C1 (grid0.coords t) ↔ t.val % 4 = 0)
/-- The squared error and the mask are captured where the contraction block is the column block. -/
theorem hC2 : ∀ t : Fin cfg0.N, C2 (grid0.coords t) ↔ t.val % 4 = t.val / 4 % 4 :=
  (by decide +kernel : ∀ t : Fin grid0.N, C2 (grid0.coords t) ↔ t.val % 4 = t.val / 4 % 4)
/-- The outputs are written at the last contraction block. -/
theorem hC3 : ∀ t : Fin cfg0.N, C3 (grid0.coords t) ↔ t.val % 4 = 3 :=
  (by decide +kernel : ∀ t : Fin grid0.N, C3 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Off the last contraction block the body stores nothing into the first output, and the block is not written back. -/
theorem idle3 : ∀ t : Fin cfg0.N, ¬C3 (grid0.coords t) → cfg0.idle 3 (grid0.coords t) = true := by decide +kernel
theorem noFlush3 : ∀ t : Fin cfg0.N, ¬C3 (grid0.coords t) → (cfg0.win 3).flush t = false := by decide +kernel
theorem live3 : ∀ t : Fin cfg0.N, C3 (grid0.coords t) → cfg0.idle 3 (grid0.coords t) = false := by decide +kernel
/-- The same for the second output. -/
theorem idle4 : ∀ t : Fin cfg0.N, ¬C3 (grid0.coords t) → cfg0.idle 4 (grid0.coords t) = true := by decide +kernel
theorem noFlush4 : ∀ t : Fin cfg0.N, ¬C3 (grid0.coords t) → (cfg0.win 4).flush t = false := by decide +kernel
theorem live4 : ∀ t : Fin cfg0.N, C3 (grid0.coords t) → cfg0.idle 4 (grid0.coords t) = false := by decide +kernel

/-! ## The buffers the body is handed at a point -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x8x128 .f32 := win0_4.stage (cfg0.slots t 4)
abbrev hs4 (t : Fin cfg0.N) : (ms4 t).IsWhole := hstage0_4 ((cfg0.slots t 4).cast nbuf0_4)
/-- The three scratch tiles: the accumulator, the captured squared error, the captured mask. -/
abbrev scM0 : Memref sig .tc .vmem S512x1024 .f32 := Memref.whole cc0_scratch0
abbrev scM1 : Memref sig .tc .vmem S512x1024 .f32 := Memref.whole cc0_scratch1
abbrev scM2 : Memref sig .tc .vmem S512x1024 .f32 := Memref.whole cc0_scratch2

/-- The region's own invariant names the three scratch tiles at some contents each, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The scratch tiles after each point -/

/-- What the three scratch tiles hold after the body at position n: at the first point the reset and the capture both
    hold, so nothing of what they held before is kept; later each is the point's function of what the point before left. -/
def scr (c : Dev nD) : (n : ℕ) → n < cfg0.N → Vec F S512x1024 .f32 × Vec F S512x1024 .f32 × Vec F S512x1024 .f32
  | 0, hn => (k0_pay5 (iblk m c 0 ⟨0, hn⟩) (iblk m c 1 ⟨0, hn⟩) (iblk m c 2 ⟨0, hn⟩) k0_pay1,
      k0_pay3 (iblk m c 0 ⟨0, hn⟩) (iblk m c 1 ⟨0, hn⟩), k0_pay4 (iblk m c 0 ⟨0, hn⟩))
  | n + 1, hn =>
    (accNext (grid0.coords ⟨n + 1, hn⟩) (iblk m c 0 ⟨n + 1, hn⟩) (iblk m c 1 ⟨n + 1, hn⟩) (iblk m c 2 ⟨n + 1, hn⟩) (scr c n (Nat.lt_of_succ_lt hn)).1,
      sqNext (grid0.coords ⟨n + 1, hn⟩) (iblk m c 0 ⟨n + 1, hn⟩) (iblk m c 1 ⟨n + 1, hn⟩) (scr c n (Nat.lt_of_succ_lt hn)).2.1,
      mkNext (grid0.coords ⟨n + 1, hn⟩) (iblk m c 0 ⟨n + 1, hn⟩) (scr c n (Nat.lt_of_succ_lt hn)).2.2)

theorem scr_zero (c : Dev nD) (t : Fin cfg0.N) (h : t.val = 0) :
    scr m c t.val t.isLt = (k0_pay5 (iblk m c 0 t) (iblk m c 1 t) (iblk m c 2 t) k0_pay1, k0_pay3 (iblk m c 0 t) (iblk m c 1 t), k0_pay4 (iblk m c 0 t)) := by
  obtain ⟨n, hn⟩ := t
  cases n with
  | zero => rfl
  | succ n => exact absurd h (Nat.succ_ne_zero _)

theorem scr_pos (c : Dev nD) (t : Fin cfg0.N) (h : t.val ≠ 0) :
    scr m c t.val t.isLt
      = (accNext (grid0.coords t) (iblk m c 0 t) (iblk m c 1 t) (iblk m c 2 t) (scr m c (t.val - 1) (Nat.lt_of_le_of_lt (Nat.sub_le _ _) t.isLt)).1,
          sqNext (grid0.coords t) (iblk m c 0 t) (iblk m c 1 t) (scr m c (t.val - 1) (Nat.lt_of_le_of_lt (Nat.sub_le _ _) t.isLt)).2.1,
          mkNext (grid0.coords t) (iblk m c 0 t) (scr m c (t.val - 1) (Nat.lt_of_le_of_lt (Nat.sub_le _ _) t.isLt)).2.2) := by
  obtain ⟨n, hn⟩ := t
  cases n with
  | zero => exact absurd rfl h
  | succ n => rfl

/-- The invariant before position n: before the first point the region's own (the scratch at anything); afterwards
    the three scratch tiles at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (scr m c n hn).1 ∗ owns (c : Thread nD τ) scM1 fullShare (scr m c n hn).2.1 ∗ owns (c : Thread nD τ) scM2 fullShare (scr m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (scr m c n hn).1 ∗ owns (c : Thread nD τ) scM1 fullShare (scr m c n hn).2.1 ∗ owns (c : Thread nD τ) scM2 fullShare (scr m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (scr m c (n - 1) (by omega)).1 ∗ owns (c : Thread nD τ) scM1 fullShare (scr m c (n - 1) (by omega)).2.1 ∗ owns (c : Thread nD τ) scM2 fullShare (scr m c (n - 1) (by omega)).2.2) ∗ (∃ r, prngReg c r)) := by
  cases n with
  | zero => exact absurd rfl hz
  | succ n => rfl

/-! ## The proof data -/

/-- The arrays as the region finds them; after the body at point t each input's buffer at its block, the first output's
    at the tile's masked total and the second's at the tile's mask count, both from the scratch tiles after the point
    (consulted only where the outputs are written); the invariant the scratch tiles' contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay6 (scr m c t.val t.isLt).2.1 (scr m c t.val t.isLt).1 (scr m c t.val t.isLt).2.2
    | ⟨4, _⟩ => k0_pay7 (scr m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay6 (scr m c t.val t.isLt).2.1 (scr m c t.val t.isLt).1 (scr m c t.val t.isLt).2.2 := by dsimp only [dats]
theorem after4 (c : Dev nD) (t : Fin cfg0.N) : (dats m 0 c).after 4 t = k0_pay7 (scr m c t.val t.isLt).2.2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.Kernel.Body

end
-- ==== Proof.KbRun1.lean ====
import proofs.«168541_j51891794870959_2_alg».proof.Proof.Gen.Kernel.Frame
import proofs.«168541_j51891794870959_2_alg».proof.Proof.Gen.Kernel.Skeleton
import Idealize.ShloMosaic.Lib.Pipeline.Value
import proofs.«168541_j51891794870959_2_alg».proof.Proof.KbDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset holds, the capture holds and the write-out fails: run on whole buffers
    holding the three input tiles, the two output blocks and the three scratch tiles, it ends with the inputs as they were
    and every buffer it stored into at the stored payload. -/
theorem run_TTF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : C1 i) (hc2 : C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 (k0_pay1 (F := F))) ∗ owns (c : Thread nD τ) arg9 fullShare (k0_pay3 x0 x1) ∗ owns (c : Thread nD τ) arg10 fullShare (k0_pay4 x0)) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; swap; · iexact S1
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  · iexists _; isplitr; swap; · iexact S2
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]

set_option maxHeartbeats 1000000 in
/-- The body at a point where the reset holds, the capture fails and the write-out fails: run on whole buffers
    holding the three input tiles, the two output blocks and the three scratch tiles, it ends with the inputs as they were
    and every buffer it stored into at the stored payload. -/
theorem run_TFF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : C1 i) (hc2 : ¬C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 (k0_pay1 (F := F))) ∗ owns (c : Thread nD τ) arg9 fullShare s1 ∗ owns (c : Thread nD τ) arg10 fullShare s2) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; · ipureintro; exact harg9.read_unread _
    iexact S1
  · iexists _; isplitr; · ipureintro; exact harg10.read_unread _
    iexact S2

end Cert.Kernel.Body

end
-- ==== Proof.KbRun2.lean ====
import proofs.«168541_j51891794870959_2_alg».proof.Proof.Gen.Kernel.Frame
import proofs.«168541_j51891794870959_2_alg».proof.Proof.Gen.Kernel.Skeleton
import Idealize.ShloMosaic.Lib.Pipeline.Value
import proofs.«168541_j51891794870959_2_alg».proof.Proof.KbDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset fails, the capture holds and the write-out fails: run on whole buffers
    holding the three input tiles, the two output blocks and the three scratch tiles, it ends with the inputs as they were
    and every buffer it stored into at the stored payload. -/
theorem run_FTF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 s0) ∗ owns (c : Thread nD τ) arg9 fullShare (k0_pay3 x0 x1) ∗ owns (c : Thread nD τ) arg10 fullShare (k0_pay4 x0)) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; swap; · iexact S1
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  · iexists _; isplitr; swap; · iexact S2
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]

set_option maxHeartbeats 1000000 in
/-- The body at a point where the reset fails, the capture fails and the write-out fails: run on whole buffers
    holding the three input tiles, the two output blocks and the three scratch tiles, it ends with the inputs as they were
    and every buffer it stored into at the stored payload. -/
theorem run_FFF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : ¬C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 s0) ∗ owns (c : Thread nD τ) arg9 fullShare s1 ∗ owns (c : Thread nD τ) arg10 fullShare s2) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; · ipureintro; exact harg9.read_unread _
    iexact S1
  · iexists _; isplitr; · ipureintro; exact harg10.read_unread _
    iexact S2

end Cert.Kernel.Body

end
-- ==== Proof.KbRun3.lean ====
import proofs.«168541_j51891794870959_2_alg».proof.Proof.Gen.Kernel.Frame
import proofs.«168541_j51891794870959_2_alg».proof.Proof.Gen.Kernel.Skeleton
import Idealize.ShloMosaic.Lib.Pipeline.Value
import proofs.«168541_j51891794870959_2_alg».proof.Proof.KbDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset fails, the capture holds and the write-out holds: run on whole buffers
    holding the three input tiles, the two output blocks and the three scratch tiles, it ends with the inputs as they were
    and every buffer it stored into at the stored payload. -/
theorem run_FTT (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : C2 i) (hc3 : C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay3 x0 x1) (k0_pay5 x0 x1 x2 s0) (k0_pay4 x0)) ∗ owns (c : Thread nD τ) arg7 fullShare (k0_pay7 (k0_pay4 x0))
            ∗ owns (c : Thread nD τ) arg8 fullShare (k0_pay5 x0 x1 x2 s0) ∗ owns (c : Thread nD τ) arg9 fullShare (k0_pay3 x0 x1) ∗ owns (c : Thread nD τ) arg10 fullShare (k0_pay4 x0)) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [H4]
  · iexists _; isplitr; swap; · iexact H4
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; swap; · iexact S1
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  · iexists _; isplitr; swap; · iexact S2
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]

set_option maxHeartbeats 1000000 in
/-- The body at a point where the reset fails, the capture fails and the write-out holds: run on whole buffers
    holding the three input tiles, the two output blocks and the three scratch tiles, it ends with the inputs as they were
    and every buffer it stored into at the stored payload. -/
theorem run_FFT (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : ¬C2 i) (hc3 : C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 s1 (k0_pay5 x0 x1 x2 s0) s2) ∗ owns (c : Thread nD τ) arg7 fullShare (k0_pay7 s2)
            ∗ owns (c : Thread nD τ) arg8 fullShare (k0_pay5 x0 x1 x2 s0) ∗ owns (c : Thread nD τ) arg9 fullShare s1 ∗ owns (c : Thread nD τ) arg10 fullShare s2) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [H4]
  · iexists _; isplitr; swap; · iexact H4
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; · ipureintro; exact harg9.read_unread _
    iexact S1
  · iexists _; isplitr; · ipureintro; exact harg10.read_unread _
    iexact S2

end Cert.Kernel.Body

end
-- ==== Proof.KbObligation.lean ====
import proofs.«168541_j51891794870959_2_alg».proof.Proof.Gen.Kernel.Frame
import proofs.«168541_j51891794870959_2_alg».proof.Proof.Gen.Kernel.Skeleton
import Idealize.ShloMosaic.Lib.Pipeline.Value
import proofs.«168541_j51891794870959_2_alg».proof.Proof.KbData
import proofs.«168541_j51891794870959_2_alg».proof.Proof.KbRun1
import proofs.«168541_j51891794870959_2_alg».proof.Proof.KbRun2
import proofs.«168541_j51891794870959_2_alg».proof.Proof.KbRun3

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point. The inputs' buffers hold their blocks; the three conditions' closed forms say which run
    applies; the invariant hands the body the scratch tiles at what the point before left (at anything before the first
    point, where the reset and the capture overwrite all three) and takes them back at this point's contents; an output's
    buffer is overwritten whole at the last contraction block and handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 256 := lt_of_lt_of_eq t.isLt (show cfg0.N = 256 from N_0)
  by_cases h3 : C3 (grid0.coords t)
  · have h1 : ¬C1 (grid0.coords t) := fun h => by have := (hC1 t).mp h; have := (hC3 t).mp h3; omega
    have hz : t.val ≠ 0 := fun h => by have := (hC3 t).mp h3; omega
    rw [show (dats m 0 c).leavesExact 3 t = owns (c : Thread nD τ) (ms3 t) fullShare ((dats m 0 c).after 3 t) from by
      unfold Dat.leavesExact; rw [live3 t h3], after3]
    rw [show (dats m 0 c).leavesExact 4 t = owns (c : Thread nD τ) (ms4 t) fullShare ((dats m 0 c).after 4 t) from by
      unfold Dat.leavesExact; rw [live4 t h3], after4]
    rw [PhiS_castSucc m c t, PhiS_pos m c _ _ hz, scr_pos m c t hz]
    by_cases h2 : C2 (grid0.coords t)
    · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
      have eS : ∀ (x0 x1 s1 : Vec F S512x1024 .f32), sqNext (grid0.coords t) x0 x1 s1 = k0_pay3 x0 x1 := fun _ _ _ => by unfold sqNext; rw [if_pos h2]
      have eM : ∀ (x0 s2 : Vec F S512x1024 .f32), mkNext (grid0.coords t) x0 s2 = k0_pay4 x0 := fun _ _ => by unfold mkNext; rw [if_pos h2]
      simp only [eA, eS, eM]
      iintro ⟨⟨⟨HS0, HS1, HS2⟩, Hg⟩, Ho, ⟨%d0, H0⟩, ⟨%d1, H1⟩, ⟨%d2, H2⟩, ⟨%d3, H3⟩, ⟨%d4, H4⟩⟩
      iapply (run_FTT c (grid0.coords t) _ _ _ _ _ _ _ _ _ _ _ _ _ _ _ _ h1 h2 h3 (iblk m c 0 t) (iblk m c 1 t) (iblk m c 2 t) _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4

    · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
      have eS : ∀ (x0 x1 s1 : Vec F S512x1024 .f32), sqNext (grid0.coords t) x0 x1 s1 = s1 := fun _ _ _ => by unfold sqNext; rw [if_neg h2]
      have eM : ∀ (x0 s2 : Vec F S512x1024 .f32), mkNext (grid0.coords t) x0 s2 = s2 := fun _ _ => by unfold mkNext; rw [if_neg h2]
      simp only [eA, eS, eM]
      iintro ⟨⟨⟨HS0, HS1, HS2⟩, Hg⟩, Ho, ⟨%d0, H0⟩, ⟨%d1, H1⟩, ⟨%d2, H2⟩, ⟨%d3, H3⟩, ⟨%d4, H4⟩⟩
      iapply (run_FFT c (grid0.coords t) _ _ _ _ _ _ _ _ _ _ _ _ _ _ _ _ h1 h2 h3 (iblk m c 0 t) (iblk m c 1 t) (iblk m c 2 t) _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4

  · rw [Dat.leavesExact_idle (dats m 0 c) 3 t (idle3 t h3) (noFlush3 t h3), Dat.leavesExact_idle (dats m 0 c) 4 t (idle4 t h3) (noFlush4 t h3)]
    by_cases hz : t.val = 0
    · have h1 : C1 (grid0.coords t) := (hC1 t).mpr (by omega)
      have h2 : C2 (grid0.coords t) := (hC2 t).mpr (by omega)
      rw [PhiS_castSucc m c t, PhiS_zero m c _ _ hz, PhiA_eq, scr_zero m c t hz]
      have eA : ∀ (x0 x1 : Vec F S512x1024 .f32) (x2 : Vec F S1024x1024 .bf16) (s0 : Vec F S512x1024 .f32), accNext (grid0.coords t) x0 x1 x2 s0 = k0_pay5 x0 x1 x2 k0_pay1 := fun _ _ _ _ => by unfold accNext; rw [if_pos h1]
      have eS : ∀ (x0 x1 s1 : Vec F S512x1024 .f32), sqNext (grid0.coords t) x0 x1 s1 = k0_pay3 x0 x1 := fun _ _ _ => by unfold sqNext; rw [if_pos h2]
      have eM : ∀ (x0 s2 : Vec F S512x1024 .f32), mkNext (grid0.coords t) x0 s2 = k0_pay4 x0 := fun _ _ => by unfold mkNext; rw [if_pos h2]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩⟩
      iapply (run_TTF c (grid0.coords t) _ _ _ _ _ _ _ _ _ _ _ _ _ _ _ _ h1 h2 h3 (iblk m c 0 t) (iblk m c 1 t) (iblk m c 2 t) _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexists _; iexact H3
      iexists _; iexact H4

    · rw [PhiS_castSucc m c t, PhiS_pos m c _ _ hz, scr_pos m c t hz]
      by_cases h1 : C1 (grid0.coords t)
      · by_cases h2 : C2 (grid0.coords t)
        · have eA : ∀ (x0 x1 : Vec F S512x1024 .f32) (x2 : Vec F S1024x1024 .bf16) (s0 : Vec F S512x1024 .f32), accNext (grid0.coords t) x0 x1 x2 s0 = k0_pay5 x0 x1 x2 k0_pay1 := fun _ _ _ _ => by unfold accNext; rw [if_pos h1]
          have eS : ∀ (x0 x1 s1 : Vec F S512x1024 .f32), sqNext (grid0.coords t) x0 x1 s1 = k0_pay3 x0 x1 := fun _ _ _ => by unfold sqNext; rw [if_pos h2]
          have eM : ∀ (x0 s2 : Vec F S512x1024 .f32), mkNext (grid0.coords t) x0 s2 = k0_pay4 x0 := fun _ _ => by unfold mkNext; rw [if_pos h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_TTF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

        · have eA : ∀ (x0 x1 : Vec F S512x1024 .f32) (x2 : Vec F S1024x1024 .bf16) (s0 : Vec F S512x1024 .f32), accNext (grid0.coords t) x0 x1 x2 s0 = k0_pay5 x0 x1 x2 k0_pay1 := fun _ _ _ _ => by unfold accNext; rw [if_pos h1]
          have eS : ∀ (x0 x1 s1 : Vec F S512x1024 .f32), sqNext (grid0.coords t) x0 x1 s1 = s1 := fun _ _ _ => by unfold sqNext; rw [if_neg h2]
          have eM : ∀ (x0 s2 : Vec F S512x1024 .f32), mkNext (grid0.coords t) x0 s2 = s2 := fun _ _ => by unfold mkNext; rw [if_neg h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_TFF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

      · by_cases h2 : C2 (grid0.coords t)
        · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
          have eS : ∀ (x0 x1 s1 : Vec F S512x1024 .f32), sqNext (grid0.coords t) x0 x1 s1 = k0_pay3 x0 x1 := fun _ _ _ => by unfold sqNext; rw [if_pos h2]
          have eM : ∀ (x0 s2 : Vec F S512x1024 .f32), mkNext (grid0.coords t) x0 s2 = k0_pay4 x0 := fun _ _ => by unfold mkNext; rw [if_pos h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_FTF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

        · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
          have eS : ∀ (x0 x1 s1 : Vec F S512x1024 .f32), sqNext (grid0.coords t) x0 x1 s1 = s1 := fun _ _ _ => by unfold sqNext; rw [if_neg h2]
          have eM : ∀ (x0 s2 : Vec F S512x1024 .f32), mkNext (grid0.coords t) x0 s2 = s2 := fun _ _ => by unfold mkNext; rw [if_neg h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_FFF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: the scratch tiles' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and every final state has each array of the region at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KiDefs.lean ====
import proofs.«168541_j51891794870959_2_alg».proof.Proof.Gen.KernelIdeal.Frame
import proofs.«168541_j51891794870959_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition: the contraction coordinate is 0. -/
abbrev C1 (i : grid0.Coords) : Prop := (Scalar.cmpi .ne (Scalar.extui (Scalar.cmpi .eq (BitVec.ofNat 32 (i 2).val) 0#32)) 0#32) = 1#1
/-- The capture condition: the contraction coordinate equals the column-block coordinate. -/
abbrev C2 (i : grid0.Coords) : Prop := (Scalar.cmpi .ne (Scalar.extui (Scalar.cmpi .eq (BitVec.ofNat 32 (i 2).val) (BitVec.ofNat 32 (i 1).val))) 0#32) = 1#1
/-- The write-out condition: the contraction coordinate is the last. -/
abbrev C3 (i : grid0.Coords) : Prop := k0_cond3 i = 1#1

theorem hz2 : (![0, 0] : Fin 2 → Nat) = fun _ => 0 := by funext a; fin_cases a <;> rfl
theorem hz4 : (![0, 0, 0, 0] : Fin 4 → Nat) = fun _ => 0 := by funext a; fin_cases a <;> rfl

/-! ## One grid point, as a function of what the point finds

The body reads three input tiles — x0, a tile of y; x1, the same tile of yh; x2, a tile of W — and three scratch
tiles it carries from point to point: the accumulator s0, the captured squared error s1, the captured mask s2. -/

/-- The accumulator after the point: the tiles' product added to zero at the first contraction block, and to what the
    accumulator held at the others. -/
def accNext (i : grid0.Coords) (x0 x1 : Vec F S512x1024 .f32) (x2 : Vec F S1024x1024 .bf16) (s0 : Vec F S512x1024 .f32) :
    Vec F S512x1024 .f32 :=
  k0_pay5 x0 x1 x2 (if C1 i then k0_pay1 else s0)

/-- The captured squared error after the point: this point's, where the contraction block is the column block. -/
def sqNext (i : grid0.Coords) (x0 x1 s1 : Vec F S512x1024 .f32) : Vec F S512x1024 .f32 :=
  if C2 i then k0_pay3 x0 x1 else s1

/-- The captured mask after the point: this point's, where the contraction block is the column block. -/
def mkNext (i : grid0.Coords) (x0 s2 : Vec F S512x1024 .f32) : Vec F S512x1024 .f32 :=
  if C2 i then k0_pay4 x0 else s2

/-- The tile's masked total, spread over the output block, from the three scratch tiles after the point. -/
def totalOut (i : grid0.Coords) (x0 x1 : Vec F S512x1024 .f32) (x2 : Vec F S1024x1024 .bf16) (s0 s1 s2 : Vec F S512x1024 .f32) :
    Vec F S1x1x8x128 .f32 :=
  k0_pay6 (sqNext i x0 x1 s1) (accNext i x0 x1 x2 s0) (mkNext i x0 s2)

/-- The tile's mask count, spread over the output block. -/
def maskOut (i : grid0.Coords) (x0 s2 : Vec F S512x1024 .f32) : Vec F S1x1x8x128 .f32 :=
  k0_pay7 (mkNext i x0 s2)

end Cert.KernelIdeal.Body

end
-- ==== Proof.KiData.lean ====
import proofs.«168541_j51891794870959_2_alg».proof.Proof.Gen.KernelIdeal.Frame
import proofs.«168541_j51891794870959_2_alg».proof.Proof.Gen.KernelIdeal.Skeleton
import Idealize.ShloMosaic.Lib.Pipeline.Value
import proofs.«168541_j51891794870959_2_alg».proof.Proof.KiDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions over the grid

Point t of the 16 x 4 x 4 grid has coordinates (t / 16, t / 4 mod 4, t mod 4): row block, column block, contraction block. -/

/-- The accumulator is reset at the first contraction block. -/
theorem hC1 : ∀ t : Fin cfg0.N, C1 (grid0.coords t) ↔ t.val % 4 = 0 :=
  (by decide +kernel : ∀ t : Fin grid0.N, C1 (grid0.coords t) ↔ t.val % 4 = 0)
/-- The squared error and the mask are captured where the contraction block is the column block. -/
theorem hC2 : ∀ t : Fin cfg0.N, C2 (grid0.coords t) ↔ t.val % 4 = t.val / 4 % 4 :=
  (by decide +kernel : ∀ t : Fin grid0.N, C2 (grid0.coords t) ↔ t.val % 4 = t.val / 4 % 4)
/-- The outputs are written at the last contraction block. -/
theorem hC3 : ∀ t : Fin cfg0.N, C3 (grid0.coords t) ↔ t.val % 4 = 3 :=
  (by decide +kernel : ∀ t : Fin grid0.N, C3 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Off the last contraction block the body stores nothing into the first output, and the block is not written back. -/
theorem idle3 : ∀ t : Fin cfg0.N, ¬C3 (grid0.coords t) → cfg0.idle 3 (grid0.coords t) = true := by decide +kernel
theorem noFlush3 : ∀ t : Fin cfg0.N, ¬C3 (grid0.coords t) → (cfg0.win 3).flush t = false := by decide +kernel
theorem live3 : ∀ t : Fin cfg0.N, C3 (grid0.coords t) → cfg0.idle 3 (grid0.coords t) = false := by decide +kernel
/-- The same for the second output. -/
theorem idle4 : ∀ t : Fin cfg0.N, ¬C3 (grid0.coords t) → cfg0.idle 4 (grid0.coords t) = true := by decide +kernel
theorem noFlush4 : ∀ t : Fin cfg0.N, ¬C3 (grid0.coords t) → (cfg0.win 4).flush t = false := by decide +kernel
theorem live4 : ∀ t : Fin cfg0.N, C3 (grid0.coords t) → cfg0.idle 4 (grid0.coords t) = false := by decide +kernel

/-! ## The buffers the body is handed at a point -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x8x128 .f32 := win0_4.stage (cfg0.slots t 4)
abbrev hs4 (t : Fin cfg0.N) : (ms4 t).IsWhole := hstage0_4 ((cfg0.slots t 4).cast nbuf0_4)
/-- The three scratch tiles: the accumulator, the captured squared error, the captured mask. -/
abbrev scM0 : Memref sig .tc .vmem S512x1024 .f32 := Memref.whole cc0_scratch0
abbrev scM1 : Memref sig .tc .vmem S512x1024 .f32 := Memref.whole cc0_scratch1
abbrev scM2 : Memref sig .tc .vmem S512x1024 .f32 := Memref.whole cc0_scratch2

/-- The region's own invariant names the three scratch tiles at some contents each, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The scratch tiles after each point -/

/-- What the three scratch tiles hold after the body at position n: at the first point the reset and the capture both
    hold, so nothing of what they held before is kept; later each is the point's function of what the point before left. -/
def scr (c : Dev nD) : (n : ℕ) → n < cfg0.N → Vec F S512x1024 .f32 × Vec F S512x1024 .f32 × Vec F S512x1024 .f32
  | 0, hn => (k0_pay5 (iblk m c 0 ⟨0, hn⟩) (iblk m c 1 ⟨0, hn⟩) (iblk m c 2 ⟨0, hn⟩) k0_pay1,
      k0_pay3 (iblk m c 0 ⟨0, hn⟩) (iblk m c 1 ⟨0, hn⟩), k0_pay4 (iblk m c 0 ⟨0, hn⟩))
  | n + 1, hn =>
    (accNext (grid0.coords ⟨n + 1, hn⟩) (iblk m c 0 ⟨n + 1, hn⟩) (iblk m c 1 ⟨n + 1, hn⟩) (iblk m c 2 ⟨n + 1, hn⟩) (scr c n (Nat.lt_of_succ_lt hn)).1,
      sqNext (grid0.coords ⟨n + 1, hn⟩) (iblk m c 0 ⟨n + 1, hn⟩) (iblk m c 1 ⟨n + 1, hn⟩) (scr c n (Nat.lt_of_succ_lt hn)).2.1,
      mkNext (grid0.coords ⟨n + 1, hn⟩) (iblk m c 0 ⟨n + 1, hn⟩) (scr c n (Nat.lt_of_succ_lt hn)).2.2)

theorem scr_zero (c : Dev nD) (t : Fin cfg0.N) (h : t.val = 0) :
    scr m c t.val t.isLt = (k0_pay5 (iblk m c 0 t) (iblk m c 1 t) (iblk m c 2 t) k0_pay1, k0_pay3 (iblk m c 0 t) (iblk m c 1 t), k0_pay4 (iblk m c 0 t)) := by
  obtain ⟨n, hn⟩ := t
  cases n with
  | zero => rfl
  | succ n => exact absurd h (Nat.succ_ne_zero _)

theorem scr_pos (c : Dev nD) (t : Fin cfg0.N) (h : t.val ≠ 0) :
    scr m c t.val t.isLt
      = (accNext (grid0.coords t) (iblk m c 0 t) (iblk m c 1 t) (iblk m c 2 t) (scr m c (t.val - 1) (Nat.lt_of_le_of_lt (Nat.sub_le _ _) t.isLt)).1,
          sqNext (grid0.coords t) (iblk m c 0 t) (iblk m c 1 t) (scr m c (t.val - 1) (Nat.lt_of_le_of_lt (Nat.sub_le _ _) t.isLt)).2.1,
          mkNext (grid0.coords t) (iblk m c 0 t) (scr m c (t.val - 1) (Nat.lt_of_le_of_lt (Nat.sub_le _ _) t.isLt)).2.2) := by
  obtain ⟨n, hn⟩ := t
  cases n with
  | zero => exact absurd rfl h
  | succ n => rfl

/-- The invariant before position n: before the first point the region's own (the scratch at anything); afterwards
    the three scratch tiles at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (scr m c n hn).1 ∗ owns (c : Thread nD τ) scM1 fullShare (scr m c n hn).2.1 ∗ owns (c : Thread nD τ) scM2 fullShare (scr m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (scr m c n hn).1 ∗ owns (c : Thread nD τ) scM1 fullShare (scr m c n hn).2.1 ∗ owns (c : Thread nD τ) scM2 fullShare (scr m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (scr m c (n - 1) (by omega)).1 ∗ owns (c : Thread nD τ) scM1 fullShare (scr m c (n - 1) (by omega)).2.1 ∗ owns (c : Thread nD τ) scM2 fullShare (scr m c (n - 1) (by omega)).2.2) ∗ (∃ r, prngReg c r)) := by
  cases n with
  | zero => exact absurd rfl hz
  | succ n => rfl

/-! ## The proof data -/

/-- The arrays as the region finds them; after the body at point t each input's buffer at its block, the first output's
    at the tile's masked total and the second's at the tile's mask count, both from the scratch tiles after the point
    (consulted only where the outputs are written); the invariant the scratch tiles' contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay6 (scr m c t.val t.isLt).2.1 (scr m c t.val t.isLt).1 (scr m c t.val t.isLt).2.2
    | ⟨4, _⟩ => k0_pay7 (scr m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay6 (scr m c t.val t.isLt).2.1 (scr m c t.val t.isLt).1 (scr m c t.val t.isLt).2.2 := by dsimp only [dats]
theorem after4 (c : Dev nD) (t : Fin cfg0.N) : (dats m 0 c).after 4 t = k0_pay7 (scr m c t.val t.isLt).2.2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.KernelIdeal.Body

end
-- ==== Proof.KiRun1.lean ====
import proofs.«168541_j51891794870959_2_alg».proof.Proof.Gen.KernelIdeal.Frame
import proofs.«168541_j51891794870959_2_alg».proof.Proof.Gen.KernelIdeal.Skeleton
import Idealize.ShloMosaic.Lib.Pipeline.Value
import proofs.«168541_j51891794870959_2_alg».proof.Proof.KiDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset holds, the capture holds and the write-out fails: run on whole buffers
    holding the three input tiles, the two output blocks and the three scratch tiles, it ends with the inputs as they were
    and every buffer it stored into at the stored payload. -/
theorem run_TTF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : C1 i) (hc2 : C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 (k0_pay1 (F := F))) ∗ owns (c : Thread nD τ) arg9 fullShare (k0_pay3 x0 x1) ∗ owns (c : Thread nD τ) arg10 fullShare (k0_pay4 x0)) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; swap; · iexact S1
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  · iexists _; isplitr; swap; · iexact S2
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]

set_option maxHeartbeats 1000000 in
/-- The body at a point where the reset holds, the capture fails and the write-out fails: run on whole buffers
    holding the three input tiles, the two output blocks and the three scratch tiles, it ends with the inputs as they were
    and every buffer it stored into at the stored payload. -/
theorem run_TFF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : C1 i) (hc2 : ¬C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 (k0_pay1 (F := F))) ∗ owns (c : Thread nD τ) arg9 fullShare s1 ∗ owns (c : Thread nD τ) arg10 fullShare s2) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; · ipureintro; exact harg9.read_unread _
    iexact S1
  · iexists _; isplitr; · ipureintro; exact harg10.read_unread _
    iexact S2

end Cert.KernelIdeal.Body

end
-- ==== Proof.KiRun2.lean ====
import proofs.«168541_j51891794870959_2_alg».proof.Proof.Gen.KernelIdeal.Frame
import proofs.«168541_j51891794870959_2_alg».proof.Proof.Gen.KernelIdeal.Skeleton
import Idealize.ShloMosaic.Lib.Pipeline.Value
import proofs.«168541_j51891794870959_2_alg».proof.Proof.KiDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset fails, the capture holds and the write-out fails: run on whole buffers
    holding the three input tiles, the two output blocks and the three scratch tiles, it ends with the inputs as they were
    and every buffer it stored into at the stored payload. -/
theorem run_FTF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 s0) ∗ owns (c : Thread nD τ) arg9 fullShare (k0_pay3 x0 x1) ∗ owns (c : Thread nD τ) arg10 fullShare (k0_pay4 x0)) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; swap; · iexact S1
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  · iexists _; isplitr; swap; · iexact S2
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]

set_option maxHeartbeats 1000000 in
/-- The body at a point where the reset fails, the capture fails and the write-out fails: run on whole buffers
    holding the three input tiles, the two output blocks and the three scratch tiles, it ends with the inputs as they were
    and every buffer it stored into at the stored payload. -/
theorem run_FFF (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : ¬C2 i) (hc3 : ¬C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare o3 ∗ owns (c : Thread nD τ) arg7 fullShare o4
            ∗ owns (c : Thread nD τ) arg8 fullShare (k0_pay5 x0 x1 x2 s0) ∗ owns (c : Thread nD τ) arg9 fullShare s1 ∗ owns (c : Thread nD τ) arg10 fullShare s2) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; · ipureintro; exact harg9.read_unread _
    iexact S1
  · iexists _; isplitr; · ipureintro; exact harg10.read_unread _
    iexact S2

end Cert.KernelIdeal.Body

end
-- ==== Proof.KiRun3.lean ====
import proofs.«168541_j51891794870959_2_alg».proof.Proof.Gen.KernelIdeal.Frame
import proofs.«168541_j51891794870959_2_alg».proof.Proof.Gen.KernelIdeal.Skeleton
import Idealize.ShloMosaic.Lib.Pipeline.Value
import proofs.«168541_j51891794870959_2_alg».proof.Proof.KiDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset fails, the capture holds and the write-out holds: run on whole buffers
    holding the three input tiles, the two output blocks and the three scratch tiles, it ends with the inputs as they were
    and every buffer it stored into at the stored payload. -/
theorem run_FTT (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : C2 i) (hc3 : C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay3 x0 x1) (k0_pay5 x0 x1 x2 s0) (k0_pay4 x0)) ∗ owns (c : Thread nD τ) arg7 fullShare (k0_pay7 (k0_pay4 x0))
            ∗ owns (c : Thread nD τ) arg8 fullShare (k0_pay5 x0 x1 x2 s0) ∗ owns (c : Thread nD τ) arg9 fullShare (k0_pay3 x0 x1) ∗ owns (c : Thread nD τ) arg10 fullShare (k0_pay4 x0)) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [H4]
  · iexists _; isplitr; swap; · iexact H4
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; swap; · iexact S1
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  · iexists _; isplitr; swap; · iexact S2
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]

set_option maxHeartbeats 1000000 in
/-- The body at a point where the reset fails, the capture fails and the write-out holds: run on whole buffers
    holding the three input tiles, the two output blocks and the three scratch tiles, it ends with the inputs as they were
    and every buffer it stored into at the stored payload. -/
theorem run_FFT (c : Dev nD) (i : grid0.Coords)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1x8x128 .f32) (harg6 : arg6.IsWhole)
    (arg7 : Memref sig .tc .vmem S1x1x8x128 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (hc1 : ¬C1 i) (hc2 : ¬C2 i) (hc3 : C3 i)
    (x0 x1 : Vec F S512x1024 .f32) (x2 : Vec F S1024x1024 .bf16) (s0 s1 s2 : Vec F S512x1024 .f32) (o3 o4 : Vec F S1x1x8x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 s1 (k0_pay5 x0 x1 x2 s0) s2) ∗ owns (c : Thread nD τ) arg7 fullShare (k0_pay7 s2)
            ∗ owns (c : Thread nD τ) arg8 fullShare (k0_pay5 x0 x1 x2 s0) ∗ owns (c : Thread nD τ) arg9 fullShare s1 ∗ owns (c : Thread nD τ) arg10 fullShare s2) -∗ K ⟨⟩))
      ⊢ wp frame (wpE (defs₀ (F := F)) Variants.none c none) E (cc0__loss_kernel i arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hg0; obtain rfl := harg9.eq_unread hg1; obtain rfl := harg10.eq_unread hg2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [H4]
  · iexists _; isplitr; swap; · iexact H4
    ipureintro
    sl_unfold_words
    refine (View.read_writes_eq_canon _ _ _ ?_).trans ?_
    · exact fun y => ⟨_, List.mem_cons_self .., View.mem_set_unit_zero hz4 Gen.inb_S1x1x8x128_S1x1x8x128_0_0_0_0 y⟩
    rw [View.canon_cons_unit_zero hz4]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S0]
  · iexists _; isplitr; swap; · iexact S0
    ipureintro
    sl_unfold_words
    refine (View.read_writes_eq_canon _ _ _ ?_).trans ?_
    · exact fun y => ⟨_, List.mem_cons_self .., View.mem_set_unit_zero hz2 Gen.inb_S512x1024_S512x1024_0_0 y⟩
    rw [View.canon_cons_unit_zero hz2]
    simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1024x1024) hz2, View.ld_unit_zero (S := S1x1x8x128) hz4, View.readCov_unit_zero (S := S512x1024) _ hz2]
  isplitl [S1]
  · iexists _; isplitr; · ipureintro; exact harg9.read_unread _
    iexact S1
  · iexists _; isplitr; · ipureintro; exact harg10.read_unread _
    iexact S2

end Cert.KernelIdeal.Body

end
-- ==== Proof.KiObligation.lean ====
import proofs.«168541_j51891794870959_2_alg».proof.Proof.Gen.KernelIdeal.Frame
import proofs.«168541_j51891794870959_2_alg».proof.Proof.Gen.KernelIdeal.Skeleton
import Idealize.ShloMosaic.Lib.Pipeline.Value
import proofs.«168541_j51891794870959_2_alg».proof.Proof.KiData
import proofs.«168541_j51891794870959_2_alg».proof.Proof.KiRun1
import proofs.«168541_j51891794870959_2_alg».proof.Proof.KiRun2
import proofs.«168541_j51891794870959_2_alg».proof.Proof.KiRun3

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point. The inputs' buffers hold their blocks; the three conditions' closed forms say which run
    applies; the invariant hands the body the scratch tiles at what the point before left (at anything before the first
    point, where the reset and the capture overwrite all three) and takes them back at this point's contents; an output's
    buffer is overwritten whole at the last contraction block and handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 256 := lt_of_lt_of_eq t.isLt (show cfg0.N = 256 from N_0)
  by_cases h3 : C3 (grid0.coords t)
  · have h1 : ¬C1 (grid0.coords t) := fun h => by have := (hC1 t).mp h; have := (hC3 t).mp h3; omega
    have hz : t.val ≠ 0 := fun h => by have := (hC3 t).mp h3; omega
    rw [show (dats m 0 c).leavesExact 3 t = owns (c : Thread nD τ) (ms3 t) fullShare ((dats m 0 c).after 3 t) from by
      unfold Dat.leavesExact; rw [live3 t h3], after3]
    rw [show (dats m 0 c).leavesExact 4 t = owns (c : Thread nD τ) (ms4 t) fullShare ((dats m 0 c).after 4 t) from by
      unfold Dat.leavesExact; rw [live4 t h3], after4]
    rw [PhiS_castSucc m c t, PhiS_pos m c _ _ hz, scr_pos m c t hz]
    by_cases h2 : C2 (grid0.coords t)
    · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
      have eS : ∀ (x0 x1 s1 : Vec F S512x1024 .f32), sqNext (grid0.coords t) x0 x1 s1 = k0_pay3 x0 x1 := fun _ _ _ => by unfold sqNext; rw [if_pos h2]
      have eM : ∀ (x0 s2 : Vec F S512x1024 .f32), mkNext (grid0.coords t) x0 s2 = k0_pay4 x0 := fun _ _ => by unfold mkNext; rw [if_pos h2]
      simp only [eA, eS, eM]
      iintro ⟨⟨⟨HS0, HS1, HS2⟩, Hg⟩, Ho, ⟨%d0, H0⟩, ⟨%d1, H1⟩, ⟨%d2, H2⟩, ⟨%d3, H3⟩, ⟨%d4, H4⟩⟩
      iapply (run_FTT c (grid0.coords t) _ _ _ _ _ _ _ _ _ _ _ _ _ _ _ _ h1 h2 h3 (iblk m c 0 t) (iblk m c 1 t) (iblk m c 2 t) _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4

    · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
      have eS : ∀ (x0 x1 s1 : Vec F S512x1024 .f32), sqNext (grid0.coords t) x0 x1 s1 = s1 := fun _ _ _ => by unfold sqNext; rw [if_neg h2]
      have eM : ∀ (x0 s2 : Vec F S512x1024 .f32), mkNext (grid0.coords t) x0 s2 = s2 := fun _ _ => by unfold mkNext; rw [if_neg h2]
      simp only [eA, eS, eM]
      iintro ⟨⟨⟨HS0, HS1, HS2⟩, Hg⟩, Ho, ⟨%d0, H0⟩, ⟨%d1, H1⟩, ⟨%d2, H2⟩, ⟨%d3, H3⟩, ⟨%d4, H4⟩⟩
      iapply (run_FFT c (grid0.coords t) _ _ _ _ _ _ _ _ _ _ _ _ _ _ _ _ h1 h2 h3 (iblk m c 0 t) (iblk m c 1 t) (iblk m c 2 t) _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4

  · rw [Dat.leavesExact_idle (dats m 0 c) 3 t (idle3 t h3) (noFlush3 t h3), Dat.leavesExact_idle (dats m 0 c) 4 t (idle4 t h3) (noFlush4 t h3)]
    by_cases hz : t.val = 0
    · have h1 : C1 (grid0.coords t) := (hC1 t).mpr (by omega)
      have h2 : C2 (grid0.coords t) := (hC2 t).mpr (by omega)
      rw [PhiS_castSucc m c t, PhiS_zero m c _ _ hz, PhiA_eq, scr_zero m c t hz]
      have eA : ∀ (x0 x1 : Vec F S512x1024 .f32) (x2 : Vec F S1024x1024 .bf16) (s0 : Vec F S512x1024 .f32), accNext (grid0.coords t) x0 x1 x2 s0 = k0_pay5 x0 x1 x2 k0_pay1 := fun _ _ _ _ => by unfold accNext; rw [if_pos h1]
      have eS : ∀ (x0 x1 s1 : Vec F S512x1024 .f32), sqNext (grid0.coords t) x0 x1 s1 = k0_pay3 x0 x1 := fun _ _ _ => by unfold sqNext; rw [if_pos h2]
      have eM : ∀ (x0 s2 : Vec F S512x1024 .f32), mkNext (grid0.coords t) x0 s2 = k0_pay4 x0 := fun _ _ => by unfold mkNext; rw [if_pos h2]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩⟩
      iapply (run_TTF c (grid0.coords t) _ _ _ _ _ _ _ _ _ _ _ _ _ _ _ _ h1 h2 h3 (iblk m c 0 t) (iblk m c 1 t) (iblk m c 2 t) _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexists _; iexact H3
      iexists _; iexact H4

    · rw [PhiS_castSucc m c t, PhiS_pos m c _ _ hz, scr_pos m c t hz]
      by_cases h1 : C1 (grid0.coords t)
      · by_cases h2 : C2 (grid0.coords t)
        · have eA : ∀ (x0 x1 : Vec F S512x1024 .f32) (x2 : Vec F S1024x1024 .bf16) (s0 : Vec F S512x1024 .f32), accNext (grid0.coords t) x0 x1 x2 s0 = k0_pay5 x0 x1 x2 k0_pay1 := fun _ _ _ _ => by unfold accNext; rw [if_pos h1]
          have eS : ∀ (x0 x1 s1 : Vec F S512x1024 .f32), sqNext (grid0.coords t) x0 x1 s1 = k0_pay3 x0 x1 := fun _ _ _ => by unfold sqNext; rw [if_pos h2]
          have eM : ∀ (x0 s2 : Vec F S512x1024 .f32), mkNext (grid0.coords t) x0 s2 = k0_pay4 x0 := fun _ _ => by unfold mkNext; rw [if_pos h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_TTF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

        · have eA : ∀ (x0 x1 : Vec F S512x1024 .f32) (x2 : Vec F S1024x1024 .bf16) (s0 : Vec F S512x1024 .f32), accNext (grid0.coords t) x0 x1 x2 s0 = k0_pay5 x0 x1 x2 k0_pay1 := fun _ _ _ _ => by unfold accNext; rw [if_pos h1]
          have eS : ∀ (x0 x1 s1 : Vec F S512x1024 .f32), sqNext (grid0.coords t) x0 x1 s1 = s1 := fun _ _ _ => by unfold sqNext; rw [if_neg h2]
          have eM : ∀ (x0 s2 : Vec F S512x1024 .f32), mkNext (grid0.coords t) x0 s2 = s2 := fun _ _ => by unfold mkNext; rw [if_neg h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_TFF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

      · by_cases h2 : C2 (grid0.coords t)
        · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
          have eS : ∀ (x0 x1 s1 : Vec F S512x1024 .f32), sqNext (grid0.coords t) x0 x1 s1 = k0_pay3 x0 x1 := fun _ _ _ => by unfold sqNext; rw [if_pos h2]
          have eM : ∀ (x0 s2 : Vec F S512x1024 .f32), mkNext (grid0.coords t) x0 s2 = k0_pay4 x0 := fun _ _ => by unfold mkNext; rw [if_pos h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_FTF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

        · have eA : ∀ (x0 x1 : Vec F S512x1024 .f32) (x2 : Vec F S1024x1024 .bf16) (s0 : Vec F S512x1024 .f32), accNext (grid0.coords t) x0 x1 x2 s0 = k0_pay5 x0 x1 x2 s0 := fun _ _ _ _ => by unfold accNext; rw [if_neg h1]
          have eS : ∀ (x0 x1 s1 : Vec F S512x1024 .f32), sqNext (grid0.coords t) x0 x1 s1 = s1 := fun _ _ _ => by unfold sqNext; rw [if_neg h2]
          have eM : ∀ (x0 s2 : Vec F S512x1024 .f32), mkNext (grid0.coords t) x0 s2 = s2 := fun _ _ => by unfold mkNext; rw [if_neg h2]
          simp only [eA, eS, eM]
          iintro ⟨⟨⟨HS0, HS1, HS2⟩, Hg⟩, Ho, ⟨%d0, H0⟩, ⟨%d1, H1⟩, ⟨%d2, H2⟩, ⟨%d3, H3⟩, ⟨%d4, H4⟩⟩
          iapply (run_FFF c (grid0.coords t) _ _ _ _ _ _ _ _ _ _ _ _ _ _ _ _ h1 h2 h3 (iblk m c 0 t) (iblk m c 1 t) (iblk m c 2 t) _ _ _ _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexists _; iexact H3
          iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: the scratch tiles' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and every final state has each array of the region at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColReduce.lean ====
/-
  Column reductions of a matrix, and a matrix summed to one number the way a kernel keeps dimensions.

  A reduction of an `[m, n]` array over its FIRST axis leaves one value per column.  Read at column `q`, the source
  indices that reduce to it are `(k, q)` for `k : Fin m`, so a kernel's column sum is `∑ k, x (k, q)`.

  A kernel that sums a whole `[m, n]` array one axis at a time, keeping the reduced axes as unit axes
  (`[m, n] → [m] → [m, 1] → [1] → [1, 1]`), ends with the double sum `∑ p, ∑ k, x (p, k)` at its one entry.
-/
import proofs.«168541_j51891794870959_2_alg».proof.Proof.LibRowReduce

noncomputable section

namespace Idealize.ShloMosaic.ColReduce

open Idealize.ShloMosaic Idealize.ShloMosaic.ValueIdx

/-- The source index over column `q` with coordinate `k` on the reduced first axis is `(k, q)`. -/
theorem lift_col {m n : ℕ} (h : (⟨2, ![m, n]⟩ : Shape).Reduces [0] ⟨1, ![n]⟩) (q : Fin n) (k : Fin m) :
    h.lift (ix1 q) k = ix2 k q := by
  funext c
  apply Fin.ext
  refine (h.lift_val (ix1 q) k c).trans ?_
  match c with
  | ⟨0, _⟩ => rfl
  | ⟨1, _⟩ => rfl

/-- A kernel's column sum at column `q`. -/
theorem multiReduction_add_col {m n : ℕ} {φ : FTy} (x : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (q : Fin n) :
    multiReduction .add [0] ⟨1, ![n]⟩ x acc h hφ hacc (ix1 q) = ∑ k : Fin m, x (ix2 k q) := by
  refine (Ideal.multiReduction_add_single x acc h hφ hacc (ix1 q)).trans ?_
  exact Finset.sum_congr rfl fun k _ => congrArg x (lift_col h q k)

/-- An `[m, n]` array summed over its second axis, kept as a column, summed over its first axis, kept as a `[1, 1]`
    array: its one entry is the sum of every entry of the array, rows outermost. -/
theorem keepdims_total {m n : ℕ} {φ : FTy} (x : FVec Ideal ⟨2, ![m, n]⟩ φ) (acc acc' : BitVec φ.bits)
    (h1 : (⟨2, ![m, n]⟩ : Shape).Reduces [1] ⟨1, ![m]⟩) (hφ : FKind.Formats φ) (hacc : acc = FKind.add.neutral φ hφ)
    (c1 : (⟨1, ![m]⟩ : Shape).ShapeCasts ⟨2, ![m, 1]⟩)
    (h0 : (⟨2, ![m, 1]⟩ : Shape).Reduces [0] ⟨1, ![1]⟩) (hφ' : FKind.Formats φ) (hacc' : acc' = FKind.add.neutral φ hφ')
    (c0 : (⟨1, ![1]⟩ : Shape).ShapeCasts ⟨2, ![1, 1]⟩) :
    shapeCast ⟨2, ![1, 1]⟩
        (multiReduction .add [0] ⟨1, ![1]⟩
          (shapeCast ⟨2, ![m, 1]⟩ (multiReduction .add [1] ⟨1, ![m]⟩ x acc h1 hφ hacc) c1) acc' h0 hφ' hacc') c0
        (ix2 (0 : Fin 1) (0 : Fin 1))
      = ∑ p : Fin m, ∑ k : Fin n, x (ix2 p k) := by
  refine (RowReduce.shapeCast_a_a1_apply _ c0 (0 : Fin 1) (0 : Fin 1)).trans ?_
  refine (multiReduction_add_col _ acc' h0 hφ' hacc' (0 : Fin 1)).trans ?_
  refine Finset.sum_congr rfl fun p _ => ?_
  refine (RowReduce.shapeCast_a_a1_apply _ c1 p (0 : Fin 1)).trans ?_
  exact RowReduce.multiReduction_add_row x acc h1 hφ hacc p

end Idealize.ShloMosaic.ColReduce

end
-- ==== Proof.KiPayloads.lean ====
/-
  The body's arithmetic at the extended reals, entry by entry.

  Each value the kernel stores is a pure function of the tiles it loaded. Read at an index, with a float an
  extended real and every operation exact:
    * the accumulator's first value is zero;
    * the squared error at (p, q) is (x0 (p, q) - x1 (p, q))^2;
    * the mask at (p, q) is 0 where the target is zero and 1 elsewhere (a one-bit comparison widened to an
      integer and converted to a float);
    * one accumulation step adds to the accumulator at (p, q) the sum over k of the squared error at (p, k)
      times the weight tile's entry (q, k): the weight tile is contracted on its last axis;
    * the tile's masked total, and the tile's mask count, are the sum over the 1024 columns of the sum over the
      512 rows, divided by the float 1024, and every entry of the [1, 1, 8, 128] block holds that one number.
-/
import proofs.«168541_j51891794870959_2_alg».proof.Proof.Gen.KernelIdeal.Skeleton
import proofs.«168541_j51891794870959_2_alg».proof.Proof.LibTransposedDot
import proofs.«168541_j51891794870959_2_alg».proof.Proof.LibColReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open Cert.KernelIdeal.Facts₀ Cert.KernelIdeal.Facts
open scoped BigOperators

/-- The accumulator's first value: zero at every entry. -/
theorem pay1_apply : ∀ j : S512x1024.Idx, k0_pay1 (F := Ideal) j = 0 := by
  intro j
  unfold k0_pay1
  rw [shapeCast_self]
  exact Ideal.ofBits_zero_f32

/-- The squared error at (p, q). -/
theorem pay2_apply (x0 x1 : Vec Ideal S512x1024 .f32) (p : Fin 512) (q : Fin 1024) :
    k0_pay2 x0 x1 (ix2 p q) = (x0 (ix2 p q) - x1 (ix2 p q)) * (x0 (ix2 p q) - x1 (ix2 p q)) := rfl

/-- The squared error as it is kept: the same entries. -/
theorem pay3_apply (x0 x1 : Vec Ideal S512x1024 .f32) (p : Fin 512) (q : Fin 1024) :
    k0_pay3 x0 x1 (ix2 p q) = (x0 (ix2 p q) - x1 (ix2 p q)) * (x0 (ix2 p q) - x1 (ix2 p q)) := by
  unfold k0_pay3
  rw [shapeCast_self]
  rfl

/-- A one-bit word widened to 32 bits and read as a signed integer is the bit. -/
private theorem toInt_setWidth_zero : (BitVec.setWidth 32 (0#1)).toInt = 0 := by decide
private theorem toInt_setWidth_one : (BitVec.setWidth 32 (1#1)).toInt = 1 := by decide

/-- The mask at (p, q): zero where the target is zero, one elsewhere. -/
theorem pay4_apply (x0 : Vec Ideal S512x1024 .f32) (p : Fin 512) (q : Fin 1024) :
    k0_pay4 x0 (ix2 p q) = if x0 (ix2 p q) = 0 then 0 else 1 := by
  unfold k0_pay4
  rw [shapeCast_self]
  show (((BitVec.setWidth 32 (Ideal.cmp .one (x0 (ix2 p q)) (Ideal.ofBits .f32 0x00000000#32))).toInt : ℝ) : EReal) = _
  rw [Ideal.ofBits_zero_f32]
  unfold Ideal.cmp
  by_cases h : x0 (ix2 p q) = 0
  · rw [if_pos h]
    have hb : BitVec.ofBool (decide (x0 (ix2 p q) ≠ 0)) = 0#1 := by simp [h]
    show (((BitVec.setWidth 32 (BitVec.ofBool (decide (x0 (ix2 p q) ≠ 0)))).toInt : ℝ) : EReal) = 0
    rw [hb, toInt_setWidth_zero]
    simp
  · rw [if_neg h]
    have hb : BitVec.ofBool (decide (x0 (ix2 p q) ≠ 0)) = 1#1 := by simp [h]
    show (((BitVec.setWidth 32 (BitVec.ofBool (decide (x0 (ix2 p q) ≠ 0)))).toInt : ℝ) : EReal) = 1
    rw [hb, toInt_setWidth_one]
    simp

/-- The printed dimension numbers are those of an M×K by N×K product contracted on the right operand's last axis. -/
theorem dot_eq_transposedRhs :
    dot_S512x1024_S1024x1024_S512x1024_1_1_0_0_n_n = DotDims.transposedRhs 512 1024 1024 := rfl

/-- One accumulation step at (p, q): the accumulator there plus the squared errors of row p against row q of the
    weight tile. -/
theorem pay5_apply (x0 x1 : Vec Ideal S512x1024 .f32) (x2 : Vec Ideal S1024x1024 .bf16) (s : Vec Ideal S512x1024 .f32)
    (p : Fin 512) (q : Fin 1024) :
    k0_pay5 x0 x1 x2 s (ix2 p q) = s (ix2 p q) + ∑ k : Fin 1024, k0_pay2 x0 x1 (ix2 p k) * x2 (ix2 q k) := by
  unfold k0_pay5
  rw [shapeCast_self, shapeCast_self]
  show s (ix2 p q) + _ = s (ix2 p q) + _
  congr 1
  exact TransposedDot.matmul_zero_apply dot_S512x1024_S1024x1024_S512x1024_1_1_0_0_n_n dot_eq_transposedRhs none
    (truncf .bf16 (k0_pay2 x0 x1) Facts₀.bitsLt_bf16_f32) x2 p q

/-- An [m, n] array summed over its first axis, kept as a [1, n] row, summed along that row, kept as a [1, 1]
    array: its one entry is the sum of every entry of the array, columns outermost. -/
theorem keepdims_total_cols {m n : ℕ} {φ : FTy} (x : FVec Ideal ⟨2, ![m, n]⟩ φ) (acc acc' : BitVec φ.bits)
    (h0 : (⟨2, ![m, n]⟩ : Shape).Reduces [0] ⟨1, ![n]⟩) (hφ : FKind.Formats φ) (hacc : acc = FKind.add.neutral φ hφ)
    (c0 : (⟨1, ![n]⟩ : Shape).ShapeCasts ⟨2, ![1, n]⟩)
    (h1 : (⟨2, ![1, n]⟩ : Shape).Reduces [1] ⟨1, ![1]⟩) (hφ' : FKind.Formats φ) (hacc' : acc' = FKind.add.neutral φ hφ')
    (c1 : (⟨1, ![1]⟩ : Shape).ShapeCasts ⟨2, ![1, 1]⟩) :
    shapeCast ⟨2, ![1, 1]⟩
        (multiReduction .add [1] ⟨1, ![1]⟩
          (shapeCast ⟨2, ![1, n]⟩ (multiReduction .add [0] ⟨1, ![n]⟩ x acc h0 hφ hacc) c0) acc' h1 hφ' hacc') c1
        (ix2 (0 : Fin 1) (0 : Fin 1))
      = ∑ q : Fin n, ∑ p : Fin m, x (ix2 p q) := by
  refine (shapeCast_a_1a_apply _ c1 (0 : Fin 1) (0 : Fin 1)).trans ?_
  refine (RowReduce.multiReduction_add_row _ acc' h1 hφ' hacc' (0 : Fin 1)).trans ?_
  refine Finset.sum_congr rfl fun q _ => ?_
  refine (shapeCast_a_1a_apply _ c0 (0 : Fin 1) q).trans ?_
  exact ColReduce.multiReduction_add_col x acc h0 hφ hacc q

/-- A [1, 1] array cast to [1, 1, 1, 1], cast to itself and broadcast to a [1, 1, 8, 128] block: every entry of the
    block is the array's one entry. -/
theorem block_of_one {α : Type} (v : S1x1.Idx → α) (h1 : S1x1.ShapeCasts S1x1x1x1) (h2 : S1x1x1x1.ShapeCasts S1x1x1x1)
    (h3 : S1x1x1x1.Broadcasts S1x1x8x128) (j : S1x1x8x128.Idx) :
    broadcastTo S1x1x8x128 (shapeCast S1x1x1x1 (shapeCast S1x1x1x1 v h1) h2) h3 j = v (ix2 (0 : Fin 1) (0 : Fin 1)) := by
  refine (broadcastTo_apply _ h3 j (ix4 (0 : Fin 1) (0 : Fin 1) (0 : Fin 1) (0 : Fin 1)) ?_).trans ?_
  · intro a
    match a with
    | ⟨0, _⟩ => rfl
    | ⟨1, _⟩ => rfl
    | ⟨2, _⟩ => rfl
    | ⟨3, _⟩ => rfl
  rw [shapeCast_self]
  refine shapeCast_apply v h1 _ (ix2 (0 : Fin 1) (0 : Fin 1)) ?_
  rw [Shape.rowMajor_val_two, Shape.rowMajor_val_four]
  rfl

/-- The tile's mask count: the sum of the mask tile's entries, columns outermost, over the float 1024, at every
    entry of the block. -/
theorem pay7_apply (c : Vec Ideal S512x1024 .f32) (j : S1x1x8x128.Idx) :
    k0_pay7 c j = Ideal.div (∑ q : Fin 1024, ∑ p : Fin 512, c (ix2 p q)) (Ideal.ofBits .f32 0x44800000#32) := by
  unfold k0_pay7
  refine (block_of_one _ _ _ _ j).trans ?_
  show Ideal.div _ (Ideal.ofBits .f32 0x44800000#32) = _
  congr 1
  exact keepdims_total_cols c _ _ _ _ _ _ _ _ _ _

/-- The tile's masked total: the sum over the tile, columns outermost, of (a + b) * c, over the float 1024, at every
    entry of the block. -/
theorem pay6_apply (a b c : Vec Ideal S512x1024 .f32) (j : S1x1x8x128.Idx) :
    k0_pay6 a b c j
      = Ideal.div (∑ q : Fin 1024, ∑ p : Fin 512, (a (ix2 p q) + b (ix2 p q)) * c (ix2 p q))
          (Ideal.ofBits .f32 0x44800000#32) := by
  unfold k0_pay6
  refine (block_of_one _ _ _ _ j).trans ?_
  show Ideal.div _ (Ideal.ofBits .f32 0x44800000#32) = _
  congr 1
  exact keepdims_total_cols (mulf (addf a b) c) _ _ _ _ _ _ _ _ _ _

end Cert.KernelIdeal.Pay

end
-- ==== Proof.LossSpec.lean ====
/-
  The loss both programs compute, as one function of the three argument arrays over the extended reals.

  With y, yh of shape [8192, 4096] and W of shape [4096, 4096]:
    sq r s      = (y r s - yh r s)^2                       the squared error
    msk r s     = 0 if y r s = 0, else 1                   the non-zero-target mask
    spatial r s = sum over k of sq r k * W s k             the squared errors of row r weighted by row s of W
    total r s   = (sq r s + spatial r s) * msk r s
    loss        = sqrt (sum total / sum msk + eps)
  The tile functions below name the same entries through a row block b (512 rows) and a column block i
  (1024 columns): row b p = 512 b + p, col i q = 1024 i + q.
-/
import Idealize.ShloMosaic.PureOps.Ideal
import Idealize.ShloMosaic.Lib.ValueIdx

noncomputable section

namespace Cert.LossSpec

open Idealize.ShloMosaic Idealize.ShloMosaic.ValueIdx
open scoped BigOperators

abbrev SB : Shape := ⟨2, ![8192, 4096]⟩
abbrev SW : Shape := ⟨2, ![4096, 4096]⟩

/-- Row p of row block b. -/
def row (b : Fin 16) (p : Fin 512) : Fin 8192 := ⟨512 * b.val + p.val, by omega⟩
/-- Column q of column block i. -/
def col (i : Fin 4) (q : Fin 1024) : Fin 4096 := ⟨1024 * i.val + q.val, by omega⟩

theorem row_val (b : Fin 16) (p : Fin 512) : (row b p).val = 512 * b.val + p.val := rfl
theorem col_val (i : Fin 4) (q : Fin 1024) : (col i q).val = 1024 * i.val + q.val := rfl

variable (yh y : SB.Idx → EReal) (W : SW.Idx → EReal)

/-- The squared error at (r, s). -/
def sq (r : Fin 8192) (s : Fin 4096) : EReal := (y (ix2 r s) - yh (ix2 r s)) * (y (ix2 r s) - yh (ix2 r s))

/-- The mask at (r, s): one where the target is not zero. -/
def msk (r : Fin 8192) (s : Fin 4096) : EReal := if y (ix2 r s) = 0 then 0 else 1

/-- Row r of the squared errors against row s of W. -/
def spatial (r : Fin 8192) (s : Fin 4096) : EReal := ∑ k : Fin 4096, sq yh y r k * W (ix2 s k)

/-- The masked total at (r, s). -/
def total (r : Fin 8192) (s : Fin 4096) : EReal := (sq yh y r s + spatial yh y W r s) * msk y r s

def totalSum : EReal := ∑ r : Fin 8192, ∑ s : Fin 4096, total yh y W r s
def maskSum : EReal := ∑ r : Fin 8192, ∑ s : Fin 4096, msk y r s

/-- The f32 word of 1e-6 (its exact binary value; the same word in both programs). -/
def eps : EReal := Ideal.ofBits .f32 0x358637BD#32

/-- The tail both programs end with. -/
def tail (a b : EReal) : EReal := Ideal.sqrt (Ideal.div a b + eps)

def loss : EReal := tail (totalSum yh y W) (maskSum y)

/-- The masked totals of tile (b, i), columns outermost. -/
def tileTotal (b : Fin 16) (i : Fin 4) : EReal := ∑ q : Fin 1024, ∑ p : Fin 512, total yh y W (row b p) (col i q)
/-- The mask entries of tile (b, i), columns outermost. -/
def tileMask (b : Fin 16) (i : Fin 4) : EReal := ∑ q : Fin 1024, ∑ p : Fin 512, msk y (row b p) (col i q)

end Cert.LossSpec

end
-- ==== Proof.LibLoraFold.lean ====
/-
  The algebra that joins the two programs, over the real numbers and abstract finite index types.

  A dense layer with two low-rank corrections can be evaluated in two ways.  Folding first: build the
  effective weight  Wᵀ + c₁ · (Aᵀ Bᵀ) + c₂ · (A1ᵀ A2ᵀ B1ᵀ B2ᵀ)  once and multiply the input row by it.
  Chaining: send the input row through each thin factor in turn and add the three results.  Both are the
  same number because matrix multiplication is associative and distributes over sums and scalar
  multiples; entry by entry this is the statement below.
-/
import Mathlib.Data.Matrix.Basic
import Mathlib.Data.Real.Basic
import Mathlib.Algebra.BigOperators.Group.Finset.Basic
import Mathlib.Tactic.Ring
import Mathlib.Tactic.Linarith

open scoped BigOperators

namespace LoraFold

variable {M I O P Q : Type*} [Fintype I] [Fintype O] [Fintype P] [Fintype Q]

/-- The folded effective weight at row `i` (an input feature) and column `o` (an output feature). -/
def weight (c₁ c₂ : ℝ) (W : O → I → ℝ) (A : P → I → ℝ) (B : O → P → ℝ) (A1 : Q → I → ℝ) (A2 : P → Q → ℝ)
    (B1 : Q → P → ℝ) (B2 : O → Q → ℝ) (i : I) (o : O) : ℝ :=
  (W o i + c₁ * ∑ r, A r i * B o r) + c₂ * ∑ r', (∑ q, (∑ r, A1 r i * A2 q r) * B1 r' q) * B2 o r'

/-- Folding the thin factors into one weight and multiplying once is the same as chaining the input row
    through the factors: associativity and distributivity of the matrix product, read at one entry. -/
theorem fold_eq_chain (c₁ c₂ : ℝ) (X : M → I → ℝ) (W : O → I → ℝ) (bias : O → ℝ) (A : P → I → ℝ) (B : O → P → ℝ)
    (A1 : Q → I → ℝ) (A2 : P → Q → ℝ) (B1 : Q → P → ℝ) (B2 : O → Q → ℝ) (p : M) (o : O) :
    (∑ i, X p i * weight c₁ c₂ W A B A1 A2 B1 B2 i o) + bias o
      = ((∑ i, X p i * W o i + bias o) + c₁ * ∑ r, (∑ i, X p i * A r i) * B o r)
        + c₂ * ∑ r', (∑ q, (∑ r, (∑ i, X p i * A1 r i) * A2 q r) * B1 r' q) * B2 o r' := by
  classical
  let Xm : Matrix M I ℝ := Matrix.of X
  let Wm : Matrix O I ℝ := Matrix.of W
  let Am : Matrix P I ℝ := Matrix.of A
  let Bm : Matrix O P ℝ := Matrix.of B
  let A1m : Matrix Q I ℝ := Matrix.of A1
  let A2m : Matrix P Q ℝ := Matrix.of A2
  let B1m : Matrix Q P ℝ := Matrix.of B1
  let B2m : Matrix O Q ℝ := Matrix.of B2
  have key : Xm * (Wm.transpose + c₁ • (Am.transpose * Bm.transpose)
        + c₂ • (A1m.transpose * A2m.transpose * B1m.transpose * B2m.transpose))
      = Xm * Wm.transpose + c₁ • (Xm * Am.transpose * Bm.transpose)
        + c₂ • (Xm * A1m.transpose * A2m.transpose * B1m.transpose * B2m.transpose) := by
    simp only [Matrix.mul_add, Matrix.mul_smul, Matrix.mul_assoc]
  have h := congrFun (congrFun key p) o
  simp only [Matrix.mul_apply, Matrix.add_apply, Matrix.smul_apply, Matrix.transpose_apply, Matrix.of_apply,
    smul_eq_mul, Xm, Wm, Am, Bm, A1m, A2m, B1m, B2m] at h
  unfold weight
  rw [h]
  ring

end LoraFold
-- ==== Proof.LibLoraFoldEReal.lean ====
/-
  The fold/chain identity of `LibLoraFold` for arrays whose entries are real numbers read as extended reals.

  On the extended reals distributivity fails at the infinities, so the identity is only claimed where every entry is
  (the image of) a real number: there sums and products of entries are again images of real numbers
  (`coe_sum`), both sides are the image of the corresponding real expressions, and those agree by
  `LoraFold.fold_eq_chain`.

  Independently of finiteness, a sum over `4096` positions accumulated in four consecutive blocks of `1024`,
  starting from zero, is the whole sum: addition of extended reals is associative and commutative (`sum_four_blocks`).
-/
import Mathlib.Data.EReal.Operations
import Mathlib.Algebra.BigOperators.Fin
import Mathlib.Algebra.BigOperators.Group.Finset.Sigma
import proofs.«168541_j51891794870959_2_alg».proof.Proof.LibLoraFold

open scoped BigOperators

namespace LoraFold

/-- A finite sum of real numbers, read in the extended reals term by term, is the real sum read there. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Accumulating a sum over `4096` positions block by block (four blocks of `1024`, first to last, from zero)
    gives the whole sum. -/
theorem sum_four_blocks (f : Fin 4096 → EReal) :
    ((((0 + ∑ b : Fin 1024, f ⟨1024 * 0 + b.val, by omega⟩) + ∑ b : Fin 1024, f ⟨1024 * 1 + b.val, by omega⟩)
        + ∑ b : Fin 1024, f ⟨1024 * 2 + b.val, by omega⟩) + ∑ b : Fin 1024, f ⟨1024 * 3 + b.val, by omega⟩)
      = ∑ i : Fin 4096, f i := by
  have e : ∑ i : Fin 4096, f i = ∑ a : Fin 4, ∑ b : Fin 1024, f ⟨1024 * a.val + b.val, by omega⟩ := by
    rw [← Fintype.sum_prod_type']
    refine (Fintype.sum_equiv (finProdFinEquiv (m := 4) (n := 1024)) _ _ fun ab => ?_).symm
    refine congrArg f (Fin.ext ?_)
    show 1024 * ab.1.val + ab.2.val = ab.2.val + 1024 * ab.1.val
    omega
  rw [e, Fin.sum_univ_four, zero_add]
  rfl

variable {I O P Q : Type*} [Fintype I] [Fintype O] [Fintype P] [Fintype Q]

/-- The fold/chain identity on the extended reals, for arrays of real numbers and real scaling factors. -/
theorem fold_eq_chain_ereal (c₁ c₂ : ℝ) (X : I → ℝ) (W : O → I → ℝ) (bias : O → ℝ) (A : P → I → ℝ) (B : O → P → ℝ)
    (A1 : Q → I → ℝ) (A2 : P → Q → ℝ) (B1 : Q → P → ℝ) (B2 : O → Q → ℝ) (o : O) :
    (∑ i, (X i : EReal) * (((W o i : EReal) + (c₁ : EReal) * ∑ r, (A r i : EReal) * (B o r : EReal))
          + (c₂ : EReal) * ∑ r', (∑ q, (∑ r, (A1 r i : EReal) * (A2 q r : EReal)) * (B1 r' q : EReal)) * (B2 o r' : EReal)))
        + (bias o : EReal)
      = ((∑ i, (X i : EReal) * (W o i : EReal) + (bias o : EReal))
          + (c₁ : EReal) * ∑ r, (∑ i, (X i : EReal) * (A r i : EReal)) * (B o r : EReal))
        + (c₂ : EReal) * ∑ r', (∑ q, (∑ r, (∑ i, (X i : EReal) * (A1 r i : EReal)) * (A2 q r : EReal)) * (B1 r' q : EReal))
            * (B2 o r' : EReal) := by
  have h := fold_eq_chain (M := Unit) c₁ c₂ (fun _ => X) W bias A B A1 A2 B1 B2 () o
  unfold weight at h
  simp only [← EReal.coe_mul, ← EReal.coe_add, coe_sum]
  exact congrArg _ h

end LoraFold
-- ==== Proof.SumLaws.lean ====
/-
  Finite sums on the extended reals, regrouped.

  Addition of extended reals is commutative and associative, so a finite sum may be cut into blocks, reordered
  and re-indexed freely; none of the facts below uses distributivity or cancellation.  They are:
  a sum over a 8192 x 4096 array cut into its 16 x 4 tiles of 512 x 1024 entries (columns outermost inside a
  tile); 1024 copies of the 1024-th part of a number summed back to the number (also at the infinities, because
  1024 is a positive real); a sum over 4096 positions accumulated from the zero word in four blocks of 1024;
  a sum over a [16, 4, 8, 128] index set as the fourfold sum over its coordinates; and the loss specification's two
  whole-array sums as sums of its tile sums.
-/
import proofs.«168541_j51891794870959_2_alg».proof.Proof.LossSpec
import proofs.«168541_j51891794870959_2_alg».proof.Proof.LibLoraFoldEReal
import Idealize.ShloMosaic.PureOps.Ideal.Laws
import Mathlib.Data.EReal.Operations
import Mathlib.Algebra.BigOperators.Fin
import Mathlib.Logic.Equiv.Fin.Basic

noncomputable section

namespace Cert.SumLaws

open Idealize.ShloMosaic Idealize.ShloMosaic.ValueIdx Cert.LossSpec
open scoped BigOperators

/-! ## Blocks of rows and of columns -/

/-- A sum over the 8192 rows is the sum over the 16 row blocks of the sums over a block's 512 rows. -/
theorem sum_rows {M : Type*} [AddCommMonoid M] (g : Fin 8192 → M) :
    ∑ r : Fin 8192, g r = ∑ b : Fin 16, ∑ p : Fin 512, g (row b p) := by
  rw [← Fintype.sum_prod_type']
  refine (Fintype.sum_equiv (finProdFinEquiv (m := 16) (n := 512)) _ _ fun bp => ?_).symm
  refine congrArg g (Fin.ext ?_)
  show 512 * bp.1.val + bp.2.val = bp.2.val + 512 * bp.1.val
  omega

/-- A sum over the 4096 columns is the sum over the 4 column blocks of the sums over a block's 1024 columns. -/
theorem sum_cols {M : Type*} [AddCommMonoid M] (g : Fin 4096 → M) :
    ∑ s : Fin 4096, g s = ∑ i : Fin 4, ∑ q : Fin 1024, g (col i q) := by
  rw [← Fintype.sum_prod_type']
  refine (Fintype.sum_equiv (finProdFinEquiv (m := 4) (n := 1024)) _ _ fun iq => ?_).symm
  refine congrArg g (Fin.ext ?_)
  show 1024 * iq.1.val + iq.2.val = iq.2.val + 1024 * iq.1.val
  omega

/-- A sum over the whole array, tile by tile, inside a tile the columns outermost. -/
theorem sum_tiles {M : Type*} [AddCommMonoid M] (f : Fin 8192 → Fin 4096 → M) :
    (∑ r : Fin 8192, ∑ s : Fin 4096, f r s)
      = ∑ b : Fin 16, ∑ i : Fin 4, ∑ q : Fin 1024, ∑ p : Fin 512, f (row b p) (col i q) := by
  rw [sum_rows fun r => ∑ s : Fin 4096, f r s]
  refine Finset.sum_congr rfl fun b _ => ?_
  have h : ∀ p : Fin 512, (∑ s : Fin 4096, f (row b p) s) = ∑ i : Fin 4, ∑ q : Fin 1024, f (row b p) (col i q) :=
    fun p => sum_cols fun s => f (row b p) s
  rw [Finset.sum_congr rfl fun p _ => h p, Finset.sum_comm]
  exact Finset.sum_congr rfl fun i _ => Finset.sum_comm

/-! ## A tile's number written 1024 times -/

/-- The word 0x44800000 denotes the real 1024. -/
theorem ofBits_1024 : Ideal.ofBits .f32 0x44800000#32 = ((1024 : ℝ) : EReal) := by
  simp [Ideal.ofBits, Ideal.ieee, -EReal.coe_mul]; norm_num

/-- 1024 copies of the 1024-th part of an extended real add up to it: for a real number by arithmetic, for an
    infinity because its product with the positive real 1/1024 is the same infinity and so is a non-empty sum of
    copies of it. -/
theorem sum_1024_copies (x : EReal) :
    (∑ _r : Fin 8, ∑ _c : Fin 128, Ideal.div x (Ideal.ofBits .f32 0x44800000#32)) = x := by
  rw [ofBits_1024, Ideal.div_coe (by norm_num : (1024 : ℝ) ≠ 0)]
  simp only [Finset.sum_const, Finset.card_univ, Fintype.card_fin, smul_smul]
  induction x using EReal.rec with
  | bot =>
    rw [EReal.bot_mul_coe_of_pos (by norm_num : (0 : ℝ) < 1 / 1024), EReal.nsmul_eq_mul]
    exact EReal.coe_mul_bot_of_pos (by norm_num : (0 : ℝ) < ((8 * 128 : ℕ) : ℝ))
  | top =>
    rw [EReal.top_mul_coe_of_pos (by norm_num : (0 : ℝ) < 1 / 1024), EReal.nsmul_eq_mul]
    exact EReal.coe_mul_top_of_pos (by norm_num : (0 : ℝ) < ((8 * 128 : ℕ) : ℝ))
  | coe r =>
    rw [← EReal.coe_mul, ← EReal.coe_nsmul]
    refine congrArg _ ?_
    rw [nsmul_eq_mul]
    push_cast
    ring

/-! ## Four blocks of a contraction, from the zero word -/

/-- A sum over 4096 positions accumulated block by block, four blocks of 1024 from the zero word, is the whole
    sum. -/
theorem sum_four_blocks (g : Fin 4096 → EReal) :
    ((((Ideal.ofBits .f32 0x00000000#32 : EReal) + ∑ j : Fin 1024, g (col 0 j)) + ∑ j : Fin 1024, g (col 1 j))
        + ∑ j : Fin 1024, g (col 2 j)) + ∑ j : Fin 1024, g (col 3 j) = ∑ k : Fin 4096, g k := by
  rw [Ideal.ofBits_zero_f32]
  exact LoraFold.sum_four_blocks g

/-! ## The [16, 4, 8, 128] index set by coordinates -/

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun j := (j 0, j 1, j 2, j 3)
  invFun t := ix4 t.1 t.2.1 t.2.2.1 t.2.2.2
  left_inv j := (eq_ix4 j).symm
  right_inv _ := rfl

/-- A sum over the [16, 4, 8, 128] index set is the fourfold sum over the coordinates. -/
theorem sum_idx4 (f : (⟨4, ![16, 4, 8, 128]⟩ : Shape).Idx → EReal) :
    (∑ j, f j) = ∑ b : Fin 16, ∑ i : Fin 4, ∑ r : Fin 8, ∑ c : Fin 128, f (ix4 b i r c) := by
  rw [← Equiv.sum_comp (idxEquiv4 (n0 := 16) (n1 := 4) (n2 := 8) (n3 := 128)).symm f]
  simp only [Fintype.sum_prod_type]
  rfl

/-! ## The specification's two sums, tile by tile -/

variable (yh y : SB.Idx → EReal) (W : SW.Idx → EReal)

theorem sum_total_tiles : totalSum yh y W = ∑ b : Fin 16, ∑ i : Fin 4, tileTotal yh y W b i :=
  sum_tiles fun r s => total yh y W r s

theorem sum_msk_tiles : maskSum y = ∑ b : Fin 16, ∑ i : Fin 4, tileMask y b i :=
  sum_tiles fun r s => msk y r s

end Cert.SumLaws

end
-- ==== Proof.KiValue.lean ====
/-
  What the kernel's carried tiles and its two output blocks hold, point by point, over the extended reals.

  The grid's 256 points run over row blocks b (16), column blocks i (4) and contraction blocks k (4), the
  contraction block fastest: point t has b = t / 16, i = t / 4 mod 4, k = t mod 4.  At point t the body is handed
  the target's and the prediction's tile (b, k) and the weight's tile (i, k):

    input 0 at (p, q)  = y  (512 b + p, 1024 k + q)
    input 1 at (p, q)  = yh (512 b + p, 1024 k + q)
    input 2 at (q, kk) = W  (1024 i + q, 1024 k + kk)

  (the weight's change of float format before the region is the identity on the extended reals).

  Over the four points of a tile (b, i) the accumulator, set to zero at k = 0, gains at each k the share
  sum over kk of sq (512 b + p, 1024 k + kk) * W (1024 i + q, 1024 k + kk); after k = 3 it is the whole weighted sum
  spatial (512 b + p, 1024 i + q), four blocks of 1024 from zero being the sum over all 4096 positions.  The squared
  error and the mask are captured at k = i, where the input tiles are the tile (b, i) itself, and kept afterwards.
  So at k = 3 the first output block is the tile's masked total over the float 1024 at every entry, and the second
  the tile's mask count over the float 1024.
-/
import proofs.«168541_j51891794870959_2_alg».proof.Proof.KiPayloads
import proofs.«168541_j51891794870959_2_alg».proof.Proof.SumLaws
import proofs.«168541_j51891794870959_2_alg».proof.Proof.LossSpec
import proofs.«168541_j51891794870959_2_alg».proof.Proof.KiData
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.LossSpec
open scoped BigOperators

variable (m : (ℓ : Loc nD τ sig) → Buf (Elt Ideal) ℓ)

/-! ## The grid's points -/

theorem N256 : cfg0.N = 256 := N_0

/-- The row block of point t. -/
def tb (t : Fin cfg0.N) : Fin 16 := ⟨t.val / 16, by have h : t.val < 256 := lt_of_lt_of_eq t.isLt N256; omega⟩
/-- The column block of point t. -/
def ti (t : Fin cfg0.N) : Fin 4 := ⟨t.val / 4 % 4, Nat.mod_lt _ (by decide)⟩
/-- The contraction block of point t. -/
def tk (t : Fin cfg0.N) : Fin 4 := ⟨t.val % 4, Nat.mod_lt _ (by decide)⟩

theorem tb_val (t : Fin cfg0.N) : (tb t).val = t.val / 16 := rfl
theorem ti_val (t : Fin cfg0.N) : (ti t).val = t.val / 4 % 4 := rfl
theorem tk_val (t : Fin cfg0.N) : (tk t).val = t.val % 4 := rfl

/-- The printed index maps over the grid: the two [8192, 4096] inputs are cut at (row block, contraction block), the
    weight at (column block, contraction block). -/
theorem idx_facts : ∀ t : Fin cfg0.N,
    win0_0.index t (0 : Fin 2) = t.val / 16 ∧ win0_0.index t (1 : Fin 2) = t.val % 4
    ∧ win0_1.index t (0 : Fin 2) = t.val / 16 ∧ win0_1.index t (1 : Fin 2) = t.val % 4
    ∧ win0_2.index t (0 : Fin 2) = t.val / 4 % 4 ∧ win0_2.index t (1 : Fin 2) = t.val % 4 :=
  (by decide +kernel : ∀ t : Fin grid0.N, _)

/-- The three argument arrays as launched. -/
abbrev yhOf (c : Dev nD) : SB.Idx → EReal := m ((c : Thread nD τ).loc main_arg0)
abbrev yOf (c : Dev nD) : SB.Idx → EReal := m ((c : Thread nD τ).loc main_arg1)
abbrev wOf (c : Dev nD) : SW.Idx → EReal := m ((c : Thread nD τ).loc main_arg2)

/-! ## The input blocks at a point -/

/-- The first input's block at point t is the target's tile (row block, contraction block). -/
theorem blk0_apply (c : Dev nD) (t : Fin cfg0.N) (p : Fin 512) (q : Fin 1024) :
    iblk m c 0 t (ix2 p q) = yOf m c (ix2 (row (tb t) p) (col (tk t) q)) := by
  obtain ⟨e0, e1, -, -, -, -⟩ := idx_facts t
  show V m c main_arg1 (((cfg0.win 0).blk t).view.emb (ix2 p q)) = _
  rw [V_main_arg1]
  refine congrArg _ (funext fun a => Fin.ext ?_)
  match a with
  | ⟨0, _⟩ =>
    show win0_0.index t (0 : Fin 2) * 512 + 1 * p.val = 512 * (t.val / 16) + p.val
    omega
  | ⟨1, _⟩ =>
    show win0_0.index t (1 : Fin 2) * 1024 + 1 * q.val = 1024 * (t.val % 4) + q.val
    omega

/-- The second input's block at point t is the prediction's tile (row block, contraction block). -/
theorem blk1_apply (c : Dev nD) (t : Fin cfg0.N) (p : Fin 512) (q : Fin 1024) :
    iblk m c 1 t (ix2 p q) = yhOf m c (ix2 (row (tb t) p) (col (tk t) q)) := by
  obtain ⟨-, -, e0, e1, -, -⟩ := idx_facts t
  show V m c main_arg0 (((cfg0.win 1).blk t).view.emb (ix2 p q)) = _
  rw [V_main_arg0]
  refine congrArg _ (funext fun a => Fin.ext ?_)
  match a with
  | ⟨0, _⟩ =>
    show win0_1.index t (0 : Fin 2) * 512 + 1 * p.val = 512 * (t.val / 16) + p.val
    omega
  | ⟨1, _⟩ =>
    show win0_1.index t (1 : Fin 2) * 1024 + 1 * q.val = 1024 * (t.val % 4) + q.val
    omega

/-- The array the third window is cut from is the weight as launched: the one host operation before the region
    changes its float format, which is the identity on the extended reals. -/
theorem V_main_v0 (c : Dev nD) : (V m c main_v0 : S4096x4096.Idx → EReal) = wOf m c := by
  dsimp only [Gen.V, Gen.V0]
  simp only [Gen.hostOps0, List.flatten_cons, List.flatten_nil, List.append_nil]
  after_results
  rfl

/-- The third input's block at point t is the weight's tile (column block, contraction block). -/
theorem blk2_apply (c : Dev nD) (t : Fin cfg0.N) (q kk : Fin 1024) :
    iblk m c 2 t (ix2 q kk) = wOf m c (ix2 (col (ti t) q) (col (tk t) kk)) := by
  obtain ⟨-, -, -, -, e0, e1⟩ := idx_facts t
  show (V m c main_v0 : S4096x4096.Idx → EReal) (((cfg0.win 2).blk t).view.emb (ix2 q kk)) = _
  rw [V_main_v0]
  refine congrArg _ (funext fun a => Fin.ext ?_)
  match a with
  | ⟨0, _⟩ =>
    show win0_2.index t (0 : Fin 2) * 1024 + 1 * q.val = 1024 * (t.val / 4 % 4) + q.val
    omega
  | ⟨1, _⟩ =>
    show win0_2.index t (1 : Fin 2) * 1024 + 1 * kk.val = 1024 * (t.val % 4) + kk.val
    omega

/-! ## The accumulation over contraction blocks -/

section Acc
variable (yh y : SB.Idx → EReal) (W : SW.Idx → EReal)

/-- A natural number's contraction block, modulo 4. -/
def kBlk (k : ℕ) : Fin 4 := ⟨k % 4, Nat.mod_lt _ (by decide)⟩

/-- Contraction block k's share of the weighted sum at row (b, p) and column (i, q): the squared errors of the row
    over the block's 1024 columns against the same columns of the weight's row. -/
def blockSum (b : Fin 16) (i : Fin 4) (p : Fin 512) (q : Fin 1024) (k : ℕ) : EReal :=
  ∑ kk : Fin 1024, sq yh y (row b p) (col (kBlk k) kk) * W (ix2 (col i q) (col (kBlk k) kk))

/-- The accumulator after contraction blocks 0 … k, from zero. -/
def accUpTo (b : Fin 16) (i : Fin 4) (p : Fin 512) (q : Fin 1024) : ℕ → EReal
  | 0 => 0 + blockSum yh y W b i p q 0
  | k + 1 => accUpTo b i p q k + blockSum yh y W b i p q (k + 1)

theorem accUpTo_zero (b : Fin 16) (i : Fin 4) (p : Fin 512) (q : Fin 1024) :
    accUpTo yh y W b i p q 0 = 0 + blockSum yh y W b i p q 0 := rfl

theorem accUpTo_succ (b : Fin 16) (i : Fin 4) (p : Fin 512) (q : Fin 1024) (k : ℕ) :
    accUpTo yh y W b i p q (k + 1) = accUpTo yh y W b i p q k + blockSum yh y W b i p q (k + 1) := rfl

/-- After the fourth contraction block the accumulator holds the whole weighted sum. -/
theorem accUpTo_last (b : Fin 16) (i : Fin 4) (p : Fin 512) (q : Fin 1024) :
    accUpTo yh y W b i p q 3 = spatial yh y W (row b p) (col i q) := by
  have h := Cert.SumLaws.sum_four_blocks fun k => sq yh y (row b p) k * W (ix2 (col i q) k)
  rw [Ideal.ofBits_zero_f32] at h
  show (((0 + blockSum yh y W b i p q 0) + blockSum yh y W b i p q 1) + blockSum yh y W b i p q 2)
      + blockSum yh y W b i p q 3 = _
  exact h

end Acc

/-! ## One point's arithmetic on the blocks -/

/-- One accumulation step at a point of contraction block k: the accumulator's entry plus the block's share. -/
theorem acc_step (c : Dev nD) (t : Fin cfg0.N) (k : ℕ) (hk : t.val % 4 = k) (s : Vec Ideal S512x1024 .f32)
    (p : Fin 512) (q : Fin 1024) :
    k0_pay5 (iblk m c 0 t) (iblk m c 1 t) (iblk m c 2 t) s (ix2 p q)
      = s (ix2 p q) + blockSum (yhOf m c) (yOf m c) (wOf m c) (tb t) (ti t) p q k := by
  refine (Pay.pay5_apply _ _ _ s p q).trans ?_
  refine congrArg (s (ix2 p q) + ·) ?_
  unfold blockSum
  have hb : kBlk k = tk t := Fin.ext (by show k % 4 = t.val % 4; omega)
  rw [hb]
  refine Finset.sum_congr rfl fun kk _ => ?_
  rw [Pay.pay2_apply, blk0_apply, blk1_apply, blk2_apply]
  rfl

/-- Where the contraction block is the column block, the point's squared error is the specification's at the tile
    (row block, column block). -/
theorem sq_capture (c : Dev nD) (t : Fin cfg0.N) (h : t.val % 4 = t.val / 4 % 4) (p : Fin 512) (q : Fin 1024) :
    k0_pay3 (iblk m c 0 t) (iblk m c 1 t) (ix2 p q)
      = sq (yhOf m c) (yOf m c) (row (tb t) p) (col (ti t) q) := by
  have hb : tk t = ti t := Fin.ext h
  rw [Pay.pay3_apply, blk0_apply, blk1_apply, hb]
  rfl

/-- There the point's mask is the specification's at the same tile. -/
theorem mk_capture (c : Dev nD) (t : Fin cfg0.N) (h : t.val % 4 = t.val / 4 % 4) (p : Fin 512) (q : Fin 1024) :
    k0_pay4 (iblk m c 0 t) (ix2 p q) = msk (yOf m c) (row (tb t) p) (col (ti t) q) := by
  have hb : tk t = ti t := Fin.ext h
  rw [Pay.pay4_apply, blk0_apply, hb]
  rfl

/-! ## The scratch tiles after each point -/

/-- Moving one point back inside a run of contraction blocks keeps the row block and the column block. -/
private theorem tb_pred (n : ℕ) (hn : n + 1 < cfg0.N) (h : (n + 1) % 4 ≠ 0) :
    tb ⟨n + 1, hn⟩ = tb ⟨n, Nat.lt_of_succ_lt hn⟩ := Fin.ext (by show (n + 1) / 16 = n / 16; omega)
private theorem ti_pred (n : ℕ) (hn : n + 1 < cfg0.N) (h : (n + 1) % 4 ≠ 0) :
    ti ⟨n + 1, hn⟩ = ti ⟨n, Nat.lt_of_succ_lt hn⟩ := Fin.ext (by show (n + 1) / 4 % 4 = n / 4 % 4; omega)

/-- After the point at position n: the accumulator holds the accumulation over the contraction blocks up to the
    point's; and from the capture point on (the contraction block at least the column block) the other two tiles hold
    the specification's squared error and mask at the tile (row block, column block). -/
theorem scr_inv (c : Dev nD) : ∀ (n : ℕ) (hn : n < cfg0.N) (p : Fin 512) (q : Fin 1024),
    (Body.scr m c n hn).1 (ix2 p q)
        = accUpTo (yhOf m c) (yOf m c) (wOf m c) (tb ⟨n, hn⟩) (ti ⟨n, hn⟩) p q (n % 4)
      ∧ (n / 4 % 4 ≤ n % 4 →
          (Body.scr m c n hn).2.1 (ix2 p q) = sq (yhOf m c) (yOf m c) (row (tb ⟨n, hn⟩) p) (col (ti ⟨n, hn⟩) q)
          ∧ (Body.scr m c n hn).2.2 (ix2 p q) = msk (yOf m c) (row (tb ⟨n, hn⟩) p) (col (ti ⟨n, hn⟩) q)) := by
  intro n
  induction n with
  | zero =>
    intro hn p q
    refine ⟨?_, fun _ => ⟨?_, ?_⟩⟩
    · show k0_pay5 (iblk m c 0 ⟨0, hn⟩) (iblk m c 1 ⟨0, hn⟩) (iblk m c 2 ⟨0, hn⟩) (k0_pay1 (F := Ideal)) (ix2 p q) = _
      rw [acc_step m c ⟨0, hn⟩ 0 (by show (0 : ℕ) % 4 = 0; rfl), Pay.pay1_apply]
      rfl
    · show k0_pay3 (iblk m c 0 ⟨0, hn⟩) (iblk m c 1 ⟨0, hn⟩) (ix2 p q) = _
      exact sq_capture m c ⟨0, hn⟩ (by show (0 : ℕ) % 4 = 0 / 4 % 4; rfl) p q
    · show k0_pay4 (iblk m c 0 ⟨0, hn⟩) (ix2 p q) = _
      exact mk_capture m c ⟨0, hn⟩ (by show (0 : ℕ) % 4 = 0 / 4 % 4; rfl) p q
  | succ n ih =>
    intro hn p q
    have hn' : n < cfg0.N := Nat.lt_of_succ_lt hn
    obtain ⟨ih1, ih2⟩ := ih hn' p q
    have h1 := Body.hC1 ⟨n + 1, hn⟩
    have h2 := Body.hC2 ⟨n + 1, hn⟩
    have v : (⟨n + 1, hn⟩ : Fin cfg0.N).val = n + 1 := rfl
    rw [v] at h1 h2
    refine ⟨?_, fun hle => ⟨?_, ?_⟩⟩
    · show Body.accNext (grid0.coords ⟨n + 1, hn⟩) (iblk m c 0 ⟨n + 1, hn⟩) (iblk m c 1 ⟨n + 1, hn⟩)
          (iblk m c 2 ⟨n + 1, hn⟩) (Body.scr m c n hn').1 (ix2 p q) = _
      unfold Body.accNext
      by_cases hc : Body.C1 (grid0.coords ⟨n + 1, hn⟩)
      · have hk : (n + 1) % 4 = 0 := h1.mp hc
        rw [if_pos hc, acc_step m c ⟨n + 1, hn⟩ 0 hk, Pay.pay1_apply, hk]
        rfl
      · have hk : (n + 1) % 4 ≠ 0 := fun h => hc (h1.mpr h)
        have hk' : (n + 1) % 4 = n % 4 + 1 := by omega
        rw [if_neg hc, acc_step m c ⟨n + 1, hn⟩ (n % 4 + 1) hk', ih1, hk', tb_pred n hn hk, ti_pred n hn hk]
        rfl
    · show Body.sqNext (grid0.coords ⟨n + 1, hn⟩) (iblk m c 0 ⟨n + 1, hn⟩) (iblk m c 1 ⟨n + 1, hn⟩)
          (Body.scr m c n hn').2.1 (ix2 p q) = _
      unfold Body.sqNext
      by_cases hc : Body.C2 (grid0.coords ⟨n + 1, hn⟩)
      · rw [if_pos hc]
        exact sq_capture m c ⟨n + 1, hn⟩ (h2.mp hc) p q
      · have hne : (n + 1) % 4 ≠ (n + 1) / 4 % 4 := fun h => hc (h2.mpr h)
        have hk : (n + 1) % 4 ≠ 0 := by omega
        rw [if_neg hc, tb_pred n hn hk, ti_pred n hn hk]
        exact (ih2 (by omega)).1
    · show Body.mkNext (grid0.coords ⟨n + 1, hn⟩) (iblk m c 0 ⟨n + 1, hn⟩) (Body.scr m c n hn').2.2 (ix2 p q) = _
      unfold Body.mkNext
      by_cases hc : Body.C2 (grid0.coords ⟨n + 1, hn⟩)
      · rw [if_pos hc]
        exact mk_capture m c ⟨n + 1, hn⟩ (h2.mp hc) p q
      · have hne : (n + 1) % 4 ≠ (n + 1) / 4 % 4 := fun h => hc (h2.mpr h)
        have hk : (n + 1) % 4 ≠ 0 := by omega
        rw [if_neg hc, tb_pred n hn hk, ti_pred n hn hk]
        exact (ih2 (by omega)).2

/-- The invariant at a point. -/
theorem acc_at (c : Dev nD) (t : Fin cfg0.N) (p : Fin 512) (q : Fin 1024) :
    (Body.scr m c t.val t.isLt).1 (ix2 p q)
      = accUpTo (yhOf m c) (yOf m c) (wOf m c) (tb t) (ti t) p q (tk t).val :=
  (scr_inv m c t.val t.isLt p q).1
theorem sq_at (c : Dev nD) (t : Fin cfg0.N) (h : (ti t).val ≤ (tk t).val) (p : Fin 512) (q : Fin 1024) :
    (Body.scr m c t.val t.isLt).2.1 (ix2 p q) = sq (yhOf m c) (yOf m c) (row (tb t) p) (col (ti t) q) :=
  ((scr_inv m c t.val t.isLt p q).2 h).1
theorem mk_at (c : Dev nD) (t : Fin cfg0.N) (h : (ti t).val ≤ (tk t).val) (p : Fin 512) (q : Fin 1024) :
    (Body.scr m c t.val t.isLt).2.2 (ix2 p q) = msk (yOf m c) (row (tb t) p) (col (ti t) q) :=
  ((scr_inv m c t.val t.isLt p q).2 h).2

/-! ## The two output blocks at the last contraction block -/

/-- At a tile's last point every entry of the first output's block is the tile's masked total over the float 1024. -/
theorem out3_at_last (c : Dev nD) (t : Fin cfg0.N) (h : t.val % 4 = 3) (j : S1x1x8x128.Idx) :
    (Body.dats m 0 c).after 3 t j
      = Ideal.div (tileTotal (yhOf m c) (yOf m c) (wOf m c) (tb t) (ti t)) (Ideal.ofBits .f32 0x44800000#32) := by
  have hle : (ti t).val ≤ (tk t).val := by
    show t.val / 4 % 4 ≤ t.val % 4
    omega
  have hk : (tk t).val = 3 := h
  rw [Body.after3, Pay.pay6_apply]
  refine congrArg (Ideal.div · (Ideal.ofBits .f32 0x44800000#32)) ?_
  unfold tileTotal
  refine Finset.sum_congr rfl fun q _ => Finset.sum_congr rfl fun p _ => ?_
  rw [sq_at m c t hle, mk_at m c t hle, acc_at m c t, hk, accUpTo_last]
  rfl

/-- And every entry of the second output's block is the tile's mask count over the float 1024. -/
theorem out4_at_last (c : Dev nD) (t : Fin cfg0.N) (h : t.val % 4 = 3) (j : S1x1x8x128.Idx) :
    (Body.dats m 0 c).after 4 t j
      = Ideal.div (tileMask (yOf m c) (tb t) (ti t)) (Ideal.ofBits .f32 0x44800000#32) := by
  have hle : (ti t).val ≤ (tk t).val := by
    show t.val / 4 % 4 ≤ t.val % 4
    omega
  rw [Body.after4, Pay.pay7_apply]
  refine congrArg (Ideal.div · (Ideal.ofBits .f32 0x44800000#32)) ?_
  unfold tileMask
  exact Finset.sum_congr rfl fun q _ => Finset.sum_congr rfl fun p _ => mk_at m c t hle p q

/-- The three arrays under the names the coordinate-free statements use. -/
theorem yhOf_eq (c : Dev nD) : yhOf m c = m ((c.tc : Thread nD τ).loc main_arg0) := rfl
theorem yOf_eq (c : Dev nD) : yOf m c = m ((c.tc : Thread nD τ).loc main_arg1) := rfl
theorem wOf_eq (c : Dev nD) : wOf m c = m ((c.tc : Thread nD τ).loc main_arg2) := rfl

end Cert.KernelIdeal.Val

end
-- ==== Proof.KiArrays.lean ====
/-
  From the two output blocks to the two output arrays, and through the host operations after the region.

  Each output array has shape [16, 4, 8, 128]; its window's block at grid point t is the [1, 1, 8, 128] block at block
  index (t / 16, t / 4 mod 4, 0, 0), written back exactly at the points t with t mod 4 = 3.  So if at every such point
  the body leaves one number g (t / 16) (t / 4 mod 4) in all 8 x 128 entries of the block, the array ends holding
  g b i at every (b, i, ., .): the point 16 b + 4 i + 3 covers those entries, and a block written back twice is
  written with the same values.

  The host operations after the region sum each array over all four axes from the zero word, divide the first sum by
  the second, add a constant and take the square root.  When the entries of an array are the 1024-th part of a
  number per (b, i), the sum over its 8 x 128 copies gives the number back, so the two sums are the sums of those
  numbers over the 16 x 4 tiles and the result is the common tail of the loss at them.
-/
import proofs.«168541_j51891794870959_2_alg».proof.Proof.Gen.KernelIdeal.Frame
import proofs.«168541_j51891794870959_2_alg».proof.Proof.SumLaws
import proofs.«168541_j51891794870959_2_alg».proof.Proof.LossSpec
import Idealize.ShloMosaic.Lib.Pipeline.Value
import Idealize.ShloMosaic.Lib.StableHlo.Run
import Idealize.ShloMosaic.PureOps.Ideal.Laws

set_option maxRecDepth 16384

noncomputable section

namespace Cert.KernelIdeal.Arr

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)
variable (D : (p : Fin 1) → (c : Dev nD) → Dat τ (Elt Ideal) Unit ℕ (UR sig nD τ) ℕ (cfgs p) c)

section Arrays

/-! ## The output windows' blocks over the grid -/

/-- The grid has 256 points. -/
theorem lt256 (t : Fin cfg0.N) : t.val < 256 := Nat.lt_of_lt_of_eq t.isLt N_0

/-- The first output's block at point t sits at block index (t / 16, t / 4 mod 4, 0, 0). -/
theorem idx3 : ∀ t : Fin cfg0.N, win0_3.index t (0 : Fin 4) = t.val / 16 ∧ win0_3.index t (1 : Fin 4) = t.val / 4 % 4
    ∧ win0_3.index t (2 : Fin 4) = 0 ∧ win0_3.index t (3 : Fin 4) = 0 :=
  (by decide +kernel : ∀ t : Fin grid0.N, win0_3.index t (0 : Fin 4) = t.val / 16 ∧ win0_3.index t (1 : Fin 4) = t.val / 4 % 4
    ∧ win0_3.index t (2 : Fin 4) = 0 ∧ win0_3.index t (3 : Fin 4) = 0)
/-- So does the second output's. -/
theorem idx4 : ∀ t : Fin cfg0.N, win0_4.index t (0 : Fin 4) = t.val / 16 ∧ win0_4.index t (1 : Fin 4) = t.val / 4 % 4
    ∧ win0_4.index t (2 : Fin 4) = 0 ∧ win0_4.index t (3 : Fin 4) = 0 :=
  (by decide +kernel : ∀ t : Fin grid0.N, win0_4.index t (0 : Fin 4) = t.val / 16 ∧ win0_4.index t (1 : Fin 4) = t.val / 4 % 4
    ∧ win0_4.index t (2 : Fin 4) = 0 ∧ win0_4.index t (3 : Fin 4) = 0)

/-- An index of the first output array is in point t's block iff each coordinate is in the block's range on its axis. -/
theorem mem_blk3 (t : Fin cfg0.N) (i : S16x4x8x128.Idx) :
    i ∈ ((cfg0.win 3).blk t).view.set ↔ ∀ a : Fin 4, win0_3.index t a * S1x1x8x128.size a ≤ (i a).val ∧ (i a).val < win0_3.index t a * S1x1x8x128.size a + S1x1x8x128.size a := by
  show i ∈ ((View.whole main_v1_0).slice (win0_3.rect t)).set ↔ _
  rw [View.set_slice_whole, Rect.mem_set_unit]
  exact Iff.rfl
theorem mem_blk4 (t : Fin cfg0.N) (i : S16x4x8x128.Idx) :
    i ∈ ((cfg0.win 4).blk t).view.set ↔ ∀ a : Fin 4, win0_4.index t a * S1x1x8x128.size a ≤ (i a).val ∧ (i a).val < win0_4.index t a * S1x1x8x128.size a + S1x1x8x128.size a := by
  show i ∈ ((View.whole main_v1_1).slice (win0_4.rect t)).set ↔ _
  rw [View.set_slice_whole, Rect.mem_set_unit]
  exact Iff.rfl

/-- The point that covers the entries (b, i, ., .): the last contraction block of tile (b, i). -/
def lastPoint (i : S16x4x8x128.Idx) : Fin cfg0.N :=
  ⟨16 * (i 0).val + 4 * (i 1).val + 3, by
    have h0 : (i 0).val < 16 := (i 0).isLt
    have h1 : (i 1).val < 4 := (i 1).isLt
    rw [show cfg0.N = 256 from N_0]; omega⟩

theorem lastPoint_val (i : S16x4x8x128.Idx) : (lastPoint i).val = 16 * (i 0).val + 4 * (i 1).val + 3 := rfl

/-! ## The first output array -/

variable (c : Dev nD) (g : Fin 16 → Fin 4 → EReal)

/-- What a writing point writes back is its block of the array that holds g b i at (b, i, ., .). -/
theorem flushed3_eq
    (hlast : ∀ t : Fin cfg0.N, t.val % 4 = 3 → ∀ j : S1x1x8x128.Idx,
      (D 0 c).after 3 t j = g ⟨t.val / 16, by have := lt256 t; omega⟩ ⟨t.val / 4 % 4, by omega⟩)
    (t : Fin cfg0.N) (hf : (cfg0.win 3).flush t = true) :
    (D 0 c).flushed 3 t = ((cfg0.win 3).blk t).view.read (Elt Ideal) (fun j : S16x4x8x128.Idx => g (j 0) (j 1)) := by
  show (cfg0.win 3).cut (grid0.coords t) ((D 0 c).after 3 t) = _
  funext j
  show (D 0 c).after 3 t j = g ((((cfg0.win 3).blk t).view.emb j) 0) ((((cfg0.win 3).blk t).view.emb j) 1)
  refine (hlast t ((flush0_3 t).mp hf) j).trans ?_
  obtain ⟨e0, e1, e2, e3⟩ := idx3 t
  have hj0 : (j 0).val < 1 := (j 0).isLt
  have hj1 : (j 1).val < 1 := (j 1).isLt
  congr 1
  · apply Fin.ext
    show t.val / 16 = win0_3.index t (0 : Fin 4) * 1 + 1 * (j 0).val
    omega
  · apply Fin.ext
    show t.val / 4 % 4 = win0_3.index t (1 : Fin 4) * 1 + 1 * (j 1).val
    omega

/-- Every entry of the array is in the block of a writing point. -/
theorem cover3 (i : S16x4x8x128.Idx) :
    ∃ t : Fin cfg0.N, (cfg0.win 3).flush t = true ∧ i ∈ ((cfg0.win 3).blk t).view.set := by
  have h0 : (i 0).val < 16 := (i 0).isLt
  have h1 : (i 1).val < 4 := (i 1).isLt
  have h2 : (i 2).val < 8 := (i 2).isLt
  have h3 : (i 3).val < 128 := (i 3).isLt
  have hv := lastPoint_val i
  refine ⟨lastPoint i, (flush0_3 _).mpr (by omega), ?_⟩
  rw [mem_blk3]
  obtain ⟨e0, e1, e2, e3⟩ := idx3 (lastPoint i)
  intro a
  match a with
  | ⟨0, _⟩ => show win0_3.index (lastPoint i) (0 : Fin 4) * 1 ≤ (i 0).val ∧ (i 0).val < win0_3.index (lastPoint i) (0 : Fin 4) * 1 + 1; omega
  | ⟨1, _⟩ => show win0_3.index (lastPoint i) (1 : Fin 4) * 1 ≤ (i 1).val ∧ (i 1).val < win0_3.index (lastPoint i) (1 : Fin 4) * 1 + 1; omega
  | ⟨2, _⟩ => show win0_3.index (lastPoint i) (2 : Fin 4) * 8 ≤ (i 2).val ∧ (i 2).val < win0_3.index (lastPoint i) (2 : Fin 4) * 8 + 8; omega
  | ⟨3, _⟩ => show win0_3.index (lastPoint i) (3 : Fin 4) * 128 ≤ (i 3).val ∧ (i 3).val < win0_3.index (lastPoint i) (3 : Fin 4) * 128 + 128; omega

/-- The first output array after the region holds g b i at every (b, i, ., .). -/
theorem arr3_eq
    (hlast : ∀ t : Fin cfg0.N, t.val % 4 = 3 → ∀ j : S1x1x8x128.Idx,
      (D 0 c).after 3 t j = g ⟨t.val / 16, by have := lt256 t; omega⟩ ⟨t.val / 4 % 4, by omega⟩) :
    (D 0 c).arrAt 3 cfg0.N = fun j : S16x4x8x128.Idx => g (j 0) (j 1) :=
  (D 0 c).arrAt_eq_of_cover 3 (fun j : S16x4x8x128.Idx => g (j 0) (j 1)) (flushed3_eq D c g hlast) cover3

/-! ## The second output array -/

/-- What a writing point writes back is its block of the array that holds g b i at (b, i, ., .). -/
theorem flushed4_eq
    (hlast : ∀ t : Fin cfg0.N, t.val % 4 = 3 → ∀ j : S1x1x8x128.Idx,
      (D 0 c).after 4 t j = g ⟨t.val / 16, by have := lt256 t; omega⟩ ⟨t.val / 4 % 4, by omega⟩)
    (t : Fin cfg0.N) (hf : (cfg0.win 4).flush t = true) :
    (D 0 c).flushed 4 t = ((cfg0.win 4).blk t).view.read (Elt Ideal) (fun j : S16x4x8x128.Idx => g (j 0) (j 1)) := by
  show (cfg0.win 4).cut (grid0.coords t) ((D 0 c).after 4 t) = _
  funext j
  show (D 0 c).after 4 t j = g ((((cfg0.win 4).blk t).view.emb j) 0) ((((cfg0.win 4).blk t).view.emb j) 1)
  refine (hlast t ((flush0_4 t).mp hf) j).trans ?_
  obtain ⟨e0, e1, e2, e3⟩ := idx4 t
  have hj0 : (j 0).val < 1 := (j 0).isLt
  have hj1 : (j 1).val < 1 := (j 1).isLt
  congr 1
  · apply Fin.ext
    show t.val / 16 = win0_4.index t (0 : Fin 4) * 1 + 1 * (j 0).val
    omega
  · apply Fin.ext
    show t.val / 4 % 4 = win0_4.index t (1 : Fin 4) * 1 + 1 * (j 1).val
    omega

/-- Every entry of the array is in the block of a writing point. -/
theorem cover4 (i : S16x4x8x128.Idx) :
    ∃ t : Fin cfg0.N, (cfg0.win 4).flush t = true ∧ i ∈ ((cfg0.win 4).blk t).view.set := by
  have h0 : (i 0).val < 16 := (i 0).isLt
  have h1 : (i 1).val < 4 := (i 1).isLt
  have h2 : (i 2).val < 8 := (i 2).isLt
  have h3 : (i 3).val < 128 := (i 3).isLt
  have hv := lastPoint_val i
  refine ⟨lastPoint i, (flush0_4 _).mpr (by omega), ?_⟩
  rw [mem_blk4]
  obtain ⟨e0, e1, e2, e3⟩ := idx4 (lastPoint i)
  intro a
  match a with
  | ⟨0, _⟩ => show win0_4.index (lastPoint i) (0 : Fin 4) * 1 ≤ (i 0).val ∧ (i 0).val < win0_4.index (lastPoint i) (0 : Fin 4) * 1 + 1; omega
  | ⟨1, _⟩ => show win0_4.index (lastPoint i) (1 : Fin 4) * 1 ≤ (i 1).val ∧ (i 1).val < win0_4.index (lastPoint i) (1 : Fin 4) * 1 + 1; omega
  | ⟨2, _⟩ => show win0_4.index (lastPoint i) (2 : Fin 4) * 8 ≤ (i 2).val ∧ (i 2).val < win0_4.index (lastPoint i) (2 : Fin 4) * 8 + 8; omega
  | ⟨3, _⟩ => show win0_4.index (lastPoint i) (3 : Fin 4) * 128 ≤ (i 3).val ∧ (i 3).val < win0_4.index (lastPoint i) (3 : Fin 4) * 128 + 128; omega

/-- The second output array after the region holds g b i at every (b, i, ., .). -/
theorem arr4_eq
    (hlast : ∀ t : Fin cfg0.N, t.val % 4 = 3 → ∀ j : S1x1x8x128.Idx,
      (D 0 c).after 4 t j = g ⟨t.val / 16, by have := lt256 t; omega⟩ ⟨t.val / 4 % 4, by omega⟩) :
    (D 0 c).arrAt 4 cfg0.N = fun j : S16x4x8x128.Idx => g (j 0) (j 1) :=
  (D 0 c).arrAt_eq_of_cover 4 (fun j : S16x4x8x128.Idx => g (j 0) (j 1)) (flushed4_eq D c g hlast) cover4

end Arrays

/-! ## The host operations after the region -/

/-- A sum over the [16, 4, 8, 128] index set of the 1024-th parts of a number per (b, i) is the sum of the numbers. -/
theorem sum_parts (T : Fin 16 → Fin 4 → EReal) :
    (∑ j : S16x4x8x128.Idx, Ideal.div (T (j 0) (j 1)) (Ideal.ofBits .f32 0x44800000#32)) = ∑ b : Fin 16, ∑ i : Fin 4, T b i := by
  rw [Cert.SumLaws.sum_idx4]
  exact Finset.sum_congr rfl fun b _ => Finset.sum_congr rfl fun i _ => Cert.SumLaws.sum_1024_copies (T b i)

/-- The host's sum of such an array over all four axes, from the zero word, is the sum of the numbers. -/
theorem reduce_parts (T : Fin 16 → Fin 4 → EReal) (i : S_.Idx) :
    Host.reduceAdd (F := Ideal) (φ := .f32) (fun j : S16x4x8x128.Idx => Ideal.div (T (j 0) (j 1)) (Ideal.ofBits .f32 0x44800000#32))
        (constant S_ .f32 0x00000000#32) reducesTo_S16x4x8x128_S_d0_1_2_3 h_S_ i
      = ∑ b : Fin 16, ∑ i : Fin 4, T b i := by
  simp only [Host.reduceAdd, Ideal.hostReduceAdd_def]
  rw [Ideal.hostReduceAdd_total reducesTo_S16x4x8x128_S_d0_1_2_3 (fun b => b.elim0), sum_parts]
  show Ideal.ofBits .f32 0x00000000#32 + _ = _
  rw [Ideal.ofBits_zero_f32, zero_add]

/-- The result of the host operations after the region: when the two output arrays hold the 1024-th parts of T b i and of
    M b i at every (b, i, ., .), the last buffer holds the tail of the loss at the sums of T and of M over the tiles. -/
theorem tail_eq (c : Dev nD) (T M : Fin 16 → Fin 4 → EReal)
    (ha3 : (D 0 c).arrAt 3 cfg0.N = fun j : S16x4x8x128.Idx => Ideal.div (T (j 0) (j 1)) (Ideal.ofBits .f32 0x44800000#32))
    (ha4 : (D 0 c).arrAt 4 cfg0.N = fun j : S16x4x8x128.Idx => Ideal.div (M (j 0) (j 1)) (Ideal.ofBits .f32 0x44800000#32)) :
    Pipeline.afterTail₀ cfgs D 0 (V0 m) [hostOps1] c main_v6
      = fun _ => Cert.LossSpec.tail (∑ b : Fin 16, ∑ i : Fin 4, T b i) (∑ b : Fin 16, ∑ i : Fin 4, M b i) := by
  unfold Pipeline.afterTail₀
  show StableHlo.after hostOps1 _ (Proc.devRef .tc main_v6) = _
  after_results
  have e3 : Pipeline.withArrays (cfgs 0).spec c (V0 m c) (fun w => (D 0 c).arrAt w (cfgs 0).N) (Proc.devRef .tc main_v1_0)
      = fun j : S16x4x8x128.Idx => Ideal.div (T (j 0) (j 1)) (Ideal.ofBits .f32 0x44800000#32) :=
    (Pipeline.withArrays_arr spec0 launch0.win.arr_inj c _ _ 3).trans ha3
  have e4 : Pipeline.withArrays (cfgs 0).spec c (V0 m c) (fun w => (D 0 c).arrAt w (cfgs 0).N) (Proc.devRef .tc main_v1_1)
      = fun j : S16x4x8x128.Idx => Ideal.div (M (j 0) (j 1)) (Ideal.ofBits .f32 0x44800000#32) :=
    (Pipeline.withArrays_arr spec0 launch0.win.arr_inj c _ _ 4).trans ha4
  rw [e3, e4]
  funext i
  show Ideal.sqrt (Ideal.div (Host.reduceAdd (F := Ideal) (φ := .f32) _ _ reducesTo_S16x4x8x128_S_d0_1_2_3 h_S_ i)
      (Host.reduceAdd (F := Ideal) (φ := .f32) _ _ reducesTo_S16x4x8x128_S_d0_1_2_3 h_S_ i) + Ideal.ofBits .f32 0x358637BD#32) = _
  rw [reduce_parts, reduce_parts]
  rfl

end Cert.KernelIdeal.Arr

end
-- ==== Proof.KiClaim.lean ====
/-
  The idealized kernel's run with its result named: every weakly fair execution ends with the result buffer at the loss of
  the three argument arrays, and the arguments unchanged.

  Block (b, i) of each output array is written back once, at the grid point of the last contraction block of tile
  (b, i), and holds there the tile's number divided by 1024 in every entry (the masked total in the first array, the mask
  count in the second). The host operations after the region sum each array whole — giving back the sum of the tiles'
  numbers —, divide, add the constant and take the square root; the sums over tiles are the sums over the whole index set.
-/
import proofs.«168541_j51891794870959_2_alg».proof.Proof.KiObligation
import proofs.«168541_j51891794870959_2_alg».proof.Proof.KiValue
import proofs.«168541_j51891794870959_2_alg».proof.Proof.KiArrays
import proofs.«168541_j51891794870959_2_alg».proof.Proof.SumLaws
import proofs.«168541_j51891794870959_2_alg».proof.Proof.LossSpec

set_option maxRecDepth 16384

noncomputable section

namespace Cert.KernelIdeal.Claim

open Cert.KernelIdeal Cert.KernelIdeal.Gen
open Idealize.ShloMosaic Idealize.ShloMosaic.TcCoe Idealize.SL.Sem
open Idealize.ShloMosaic.Pipeline (Dat)
open Cert.LossSpec
open scoped BigOperators

variable (m : (ℓ : Loc nD τ sig) → Buf (Elt Ideal) ℓ) (ρ : Dev nD → PrngReg)

/-- The first output array: every entry of block (b, i) is the 1024-th part of tile (b, i)'s masked total. -/
theorem arr3 (c : Dev nD) :
    (Body.dats m 0 c).arrAt 3 cfg0.N = fun j : S16x4x8x128.Idx =>
      Ideal.div (tileTotal (Val.yhOf m c) (Val.yOf m c) (Val.wOf m c) (j 0) (j 1)) (Ideal.ofBits .f32 0x44800000#32) :=
  Arr.arr3_eq (Body.dats m) c
    (fun b i => Ideal.div (tileTotal (Val.yhOf m c) (Val.yOf m c) (Val.wOf m c) b i) (Ideal.ofBits .f32 0x44800000#32))
    (fun t h j => Val.out3_at_last m c t h j)

/-- The second output array: every entry of block (b, i) is the 1024-th part of tile (b, i)'s mask count. -/
theorem arr4 (c : Dev nD) :
    (Body.dats m 0 c).arrAt 4 cfg0.N = fun j : S16x4x8x128.Idx =>
      Ideal.div (tileMask (Val.yOf m c) (j 0) (j 1)) (Ideal.ofBits .f32 0x44800000#32) :=
  Arr.arr4_eq (Body.dats m) c
    (fun b i => Ideal.div (tileMask (Val.yOf m c) b i) (Ideal.ofBits .f32 0x44800000#32))
    (fun t h j => Val.out4_at_last m c t h j)

/-- The host operations after the region leave the loss in the result buffer: the tiles' numbers add up to the two sums
    over the whole index set. -/
theorem v6_eq (c : Dev nD) :
    Pipeline.afterTail₀ cfgs (Body.dats m) 0 (V0 m) [hostOps1] c main_v6
      = fun _ => loss (m ((c.tc : Thread nD τ).loc main_arg0)) (m ((c.tc : Thread nD τ).loc main_arg1)) (m ((c.tc : Thread nD τ).loc main_arg2)) := by
  rw [Arr.tail_eq m (Body.dats m) c _ _ (arr3 m c) (arr4 m c)]
  unfold loss
  rw [Cert.SumLaws.sum_total_tiles, Cert.SumLaws.sum_msk_tiles]

/-- The idealized kernel's run: the result buffer ends at the loss of the arguments, which end unchanged. -/
theorem value_run : θ_run defs (onTc (τ := τ) (main (F := Ideal))) ⟨m, fun _ => 0, ρ⟩ (fun r => ∀ c : Dev nD,
      r.2.mem ((c.tc : Thread nD τ).loc main_v6)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (v6_eq m c),
      ((h c).1 1).trans (((Body.dats m 0 c).arrAt_in 1 rfl _).trans ((Body.A_eq m c 1).trans (V_main_arg0 m c))),
      ((h c).1 0).trans (((Body.dats m 0 c).arrAt_in 0 rfl _).trans ((Body.A_eq m c 0).trans (V_main_arg1 m c))),
      (((h c).2 main_arg2 (Pipeline.mem_restRefs_of main_arg2 (by decide) (by decide))).trans (W_main_arg2 m (Body.dats m) c))⟩)
    (Body.run_main (F := Ideal) m ρ)

end Cert.KernelIdeal.Claim

end
-- ==== Proof.RefIsLoss.lean ====
/-
  The reference program's result, read at the extended reals, is the loss of Proof/LossSpec.lean.

  The generated modules give the reference's result buffer as one composed term of the three argument arrays
  and read each of its eighteen operations at an index.  Here the operations are identified, one by one, with
  the pieces of the specification: the comparison against the broadcast zero followed by the conversion of the
  one-bit answer is the mask; the difference times itself is the squared error; the transposed weight under a
  contraction over its first axis is the weighted sum of a row of squared errors against a row of W; the two
  whole-array sums started from the zero word are the double sums over rows and columns; the quotient, the
  added constant and the square root are the common tail.
-/
import proofs.«168541_j51891794870959_2_alg».proof.Proof.LossSpec
import proofs.«168541_j51891794870959_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo
open Idealize.ShloMosaic.ValueIdx Cert.LossSpec
open scoped BigOperators

section
variable (a0 a1 : S8192x4096.Idx → EReal) (a2 : S4096x4096.Idx → EReal)

/-- The converted comparison against zero is the mask: the comparison answers the bit 1 exactly where the target
    differs from zero, and the conversion reads that bit as the real 0 or 1. -/
theorem v2_at (r : Fin 8192) (s : Fin 4096) :
    val_main_v2 (F := Ideal) a1 (ix2 r s) = msk a1 r s := by
  rw [val_main_v2_apply, val_main_v1_apply, val_main_v0_apply, val_main_cst_apply]
  show (((Ideal.cmp .une (a1 (ix2 r s)) (Ideal.ofBits .f32 0x00000000#32)).toNat : ℝ) : EReal) = _
  rw [Ideal.ofBits_zero_f32]
  unfold msk Ideal.cmp
  by_cases h : a1 (ix2 r s) = 0
  · simp [h]
  · simp [h]

/-- The difference times itself is the squared error. -/
theorem v4_at (r : Fin 8192) (s : Fin 4096) :
    val_main_v4 (F := Ideal) a0 a1 (ix2 r s) = sq a0 a1 r s := rfl

/-- The transposed weight at (k, s) is the weight at (s, k). -/
theorem v5_at (k s : Fin 4096) :
    val_main_v5 (F := Ideal) a2 (ix2 k s) = a2 (ix2 s k) := by
  rw [val_main_v5_apply]
  exact congrArg a2 (funext fun a => Fin.ext (by match a with | ⟨0, _⟩ => rfl | ⟨1, _⟩ => rfl))

/-- The contraction is the weighted sum of row r of the squared errors against row s of the weight. -/
theorem v6_at (r : Fin 8192) (s : Fin 4096) :
    val_main_v6 (F := Ideal) a0 a1 a2 (ix2 r s) = spatial a0 a1 a2 r s := by
  rw [val_main_v6_apply]
  unfold spatial
  refine Finset.sum_congr rfl fun k _ => ?_
  have el : lidx_main_v6 (ix2 r s) k = ix2 r k :=
    funext fun a => Fin.ext (by match a with | ⟨0, _⟩ => rfl | ⟨1, _⟩ => rfl)
  have er : ridx_main_v6 (ix2 r s) k = ix2 k s :=
    funext fun a => Fin.ext (by match a with | ⟨0, _⟩ => rfl | ⟨1, _⟩ => rfl)
  rw [el, er, v4_at, v5_at]

/-- The masked sum of the squared error and its weighted sum is the total. -/
theorem v8_at (r : Fin 8192) (s : Fin 4096) :
    val_main_v8 (F := Ideal) a0 a1 a2 (ix2 r s) = total a0 a1 a2 r s := by
  rw [val_main_v8_apply, val_main_v7_apply, v6_at, v2_at, v4_at]
  rfl

/-- The first whole-array sum, started from the zero word, is the sum of the totals. -/
theorem v9_at (i : S_.Idx) : val_main_v9 (F := Ideal) a0 a1 a2 i = totalSum a0 a1 a2 := by
  rw [val_main_v9_apply, val_main_cst_0_apply, Ideal.ofBits_def, Ideal.ofBits_zero_f32, zero_add, sum_idx2]
  unfold totalSum
  exact Finset.sum_congr rfl fun r _ => Finset.sum_congr rfl fun s _ => v8_at a0 a1 a2 r s

/-- The second whole-array sum, started from the zero word, is the sum of the mask. -/
theorem v10_at (i : S_.Idx) : val_main_v10 (F := Ideal) a1 i = maskSum a1 := by
  rw [val_main_v10_apply, val_main_cst_1_apply, Ideal.ofBits_def, Ideal.ofBits_zero_f32, zero_add, sum_idx2]
  unfold maskSum
  exact Finset.sum_congr rfl fun r _ => Finset.sum_congr rfl fun s _ => v2_at a1 r s

/-- The last stage is the loss, at its one index. -/
theorem val_is_loss : val_main_v13 (F := Ideal) a0 a1 a2 = fun _ => loss a0 a1 a2 := by
  funext i
  rw [val_main_v13_apply, val_main_v12_apply, val_main_v11_apply, v9_at, v10_at, val_main_cst_2_apply]
  rfl

end

/-- The term the generated run states for the result buffer, at the extended reals, is the loss of the three
    argument arrays at its one index. -/
theorem ref_is_loss (a0 a1 : FVec Ideal S8192x4096 .f32) (a2 : FVec Ideal S4096x4096 .f32) :
    (Host.sqrt (addf (Host.divf (Host.reduceAdd (mulf (addf (mulf (subf a1 a0) (subf a1 a0)) (Host.dotGeneral dot_S8192x4096_S4096x4096_S8192x4096_1_0_0_1_n_n none (mulf (subf a1 a0) (subf a1 a0)) (transpose S4096x4096 [1, 0] a2 transposes_S4096x4096_S4096x4096_1_0))) (uitofp .f32 (cmpf .une a1 (broadcastInDim S8192x4096 ![] bcast_S_S8192x4096 (constant S_ .f32 0x00000000#32))))) (constant S_ .f32 0x00000000#32) reducesTo_S8192x4096_S_d0_1 h_S_) (Host.reduceAdd (uitofp .f32 (cmpf .une a1 (broadcastInDim S8192x4096 ![] bcast_S_S8192x4096 (constant S_ .f32 0x00000000#32)))) (constant S_ .f32 0x00000000#32) reducesTo_S8192x4096_S_d0_1 h_S_)) (constant S_ .f32 0x358637BD#32)) : FVec Ideal S_ .f32)
      = fun _ => loss a0 a1 a2 :=
  (val_main_v13_eq (F := Ideal) a0 a1 a2).trans (val_is_loss a0 a1 a2)

/-- The reference's run in the shape the assembly consumes: from any memory with zero counters every weakly fair
    execution ends with the result buffer at the loss of the three argument buffers' launch contents and the
    arguments unchanged. -/
theorem run_loss (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v13)
          = (fun _ => loss (m' ((c.tc : Thread nD τ).loc main_arg0)) (m' ((c.tc : Thread nD τ).loc main_arg1))
              (m' ((c.tc : Thread nD τ).loc main_arg2)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun _ h c => ⟨(h c).1.trans (ref_is_loss _ _ _), (h c).2⟩)
    (Cert.ReferenceIdeal.Value.run (F := Ideal) m' ρ')

end Cert.ReferenceIdeal.RefValue

end
-- ==== Proof.lean ====
/-
  The two programs compute one loss. With y, yh of shape [8192, 4096] and W of shape [4096, 4096], over the extended reals:

      sq = (y - yh)^2,   msk = [y ≠ 0],   spatial[r, s] = Σ_k sq[r, k] · W[s, k],   total = (sq + spatial) · msk,
      loss = sqrt (Σ total / Σ msk + eps)                                        (Proof/LossSpec.lean)

  The reference computes exactly this, operation by operation (Proof/RefIsLoss.lean, over its generated run).

  The kernel walks a 16 x 4 x 4 grid (row block b, column block i, contraction block k; tiles of 512 rows and 1024
  columns) and carries three scratch tiles from point to point: an accumulator, reset at k = 0 and increased at every k by
  the product of the (b, k) tile of sq with the (i, k) tile of W; the (b, i) tile of sq and the (b, i) tile of msk, both
  captured at the one point where k = i. At k = 3 the accumulator is the (b, i) tile of spatial — a sum over 4096 columns
  taken in four blocks of 1024 from zero —, and the kernel reduces (captured sq + accumulator) · captured msk, and the
  captured msk, to one number each, divides it by 1024 and writes it to all 8 · 128 = 1024 entries of block (b, i) of a
  [16, 4, 8, 128] array; the host then sums each array whole, which gives every tile's number back (1024 copies of x / 1024
  add up to x on every extended real), so the two sums are Σ total and Σ msk regrouped by tiles, and the same
  quotient, constant and square root follow. Only commutativity and associativity of + are used: no finiteness.

  The frames: the body is run once per reachable combination of its three conditions (Proof/KiRun1-3.lean), the scratch
  tiles' contents after each point are a recursion on the point (Proof/KiData.lean), and the body obligation takes them in
  and hands them back point by point (Proof/KiObligation.lean); the word-level kernel's frame is the same text at its own
  names (Proof/Kb*.lean). The kernel's value at the ideal instance is Proof/KiPayloads.lean (the body's arithmetic at an
  index), Proof/KiValue.lean (the scratch tiles and the output blocks in closed form), Proof/KiArrays.lean (the output
  arrays and the host operations after the region) and Proof/KiClaim.lean (the run with its result named).
-/
import proofs.«168541_j51891794870959_2_alg».proof.Defs
import proofs.«168541_j51891794870959_2_alg».proof.Proof.Gen.Kernel
import proofs.«168541_j51891794870959_2_alg».proof.Proof.Gen.Kernel.Skeleton
import proofs.«168541_j51891794870959_2_alg».proof.Proof.Gen.Kernel.Launch
import proofs.«168541_j51891794870959_2_alg».proof.Proof.Gen.Kernel.Points
import proofs.«168541_j51891794870959_2_alg».proof.Proof.Gen.Kernel.Frame
import proofs.«168541_j51891794870959_2_alg».proof.Proof.Gen.KernelIdeal
import proofs.«168541_j51891794870959_2_alg».proof.Proof.Gen.KernelIdeal.Skeleton
import proofs.«168541_j51891794870959_2_alg».proof.Proof.Gen.KernelIdeal.Launch
import proofs.«168541_j51891794870959_2_alg».proof.Proof.Gen.KernelIdeal.Points
import proofs.«168541_j51891794870959_2_alg».proof.Proof.Gen.KernelIdeal.Frame
import proofs.«168541_j51891794870959_2_alg».proof.Proof.Gen.ReferenceIdeal
import proofs.«168541_j51891794870959_2_alg».proof.Proof.Gen.ReferenceIdeal.Run
import proofs.«168541_j51891794870959_2_alg».proof.Proof.Gen.ReferenceIdeal.Read
import proofs.«168541_j51891794870959_2_alg».proof.Proof.Gen.Pre_finite_inputs
import proofs.«168541_j51891794870959_2_alg».proof.Proof.KbObligation
import proofs.«168541_j51891794870959_2_alg».proof.Proof.KiObligation
import proofs.«168541_j51891794870959_2_alg».proof.Proof.KiClaim
import proofs.«168541_j51891794870959_2_alg».proof.Proof.RefIsLoss
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame (F := Ideal) m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the loss of those arguments. -/
theorem algebraic : Cert.algebraic_KernelIdeal_ReferenceIdeal := by
  intro m ρ m' ρ' _ hagree
  refine ⟨fun c _ => Cert.LossSpec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Claim.value_run m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
